-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x8192 : Shape := ⟨3, ![1, 32, 8192]⟩
abbrev S_ : Shape := ⟨0, ![]⟩

class Facts : Prop where
  bcast_S_S1x32x8192 : S_.BroadcastsInDim S1x32x8192 (![] : Fin 0 → Fin S1x32x8192.rank)
  reducesTo_S1x32x8192_S_d0_1_2 : S1x32x8192.ReducesTo [0, 1, 2] S_
  h_S_ : 0 < S_.numel

variable [Facts]

def fn {F : FTy → Type} [FloatOps F] (main_arg0 : FVec F S1x32x8192 .f32) : IVec S_ 1 :=
  let main_v0 : FVec F S1x32x8192 .f32 := Host.absf main_arg0
  let main_cst : FVec F S_ .f32 := constant S_ .f32 0x7F800000#32
  let main_v1 : FVec F S1x32x8192 .f32 := broadcastInDim S1x32x8192 ![] bcast_S_S1x32x8192 main_cst
  let main_v2 : IVec S1x32x8192 1 := cmpf .olt main_v0 main_v1
  let main_c : IVec S_ 1 := constantI S_ 1 1#1
  let main_v3 : IVec S_ 1 := (fun x v => Host.reduce IntOp.andi x v reducesTo_S1x32x8192_S_d0_1_2 h_S_) main_v2 main_c
  main_v3
-- ==== Kernel.lean ====
abbrev S1x32x8192 : Shape := ⟨3, ![1, 32, 8192]⟩
abbrev S1x8192x32 : Shape := ⟨3, ![1, 8192, 32]⟩
abbrev S8192x32 : Shape := ⟨2, ![8192, 32]⟩
abbrev S1x1 : Shape := ⟨2, ![1, 1]⟩
abbrev S512x32 : Shape := ⟨2, ![512, 32]⟩
abbrev S32x512 : Shape := ⟨2, ![32, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1 : Shape := ⟨1, ![1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S1x32x8192, .f32⟩
  | .hbm, ⟨1, _⟩ => ⟨S1x8192x32, .f32⟩
  | .hbm, ⟨2, _⟩ => ⟨S8192x32, .f32⟩
  | .hbm, ⟨3, _⟩ => ⟨S1x1, .f32⟩
  | .hbm, ⟨4, _⟩ => ⟨S_, .f32⟩
  | .local _ .vmem, ⟨0, _⟩ => ⟨S512x32, .f32⟩
  | .local _ .vmem, ⟨1, _⟩ => ⟨S512x32, .f32⟩
  | .local _ .vmem, ⟨2, _⟩ => ⟨S512x32, .f32⟩
  | .local _ .vmem, ⟨3, _⟩ => ⟨S512x32, .f32⟩
  | .local _ .vmem, ⟨4, _⟩ => ⟨S1x1, .f32⟩
  | .local _ .vmem, ⟨5, _⟩ => ⟨S1x1, .f32⟩
  | _, _ => ⟨S1x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let c15_i32 : BitVec 32 := 15#32
  let v62 : BitVec 1 := Scalar.cmpi .eq arg0 c15_i32
  let arg1 : BitVec 32 := BitVec.ofNat 32 (i 1).val
  let c15_i32_28 : BitVec 32 := 15#32
  let v63 : BitVec 1 := Scalar.cmpi .eq arg1 c15_i32_28
  let v64 : BitVec 1 := Scalar.andi v62 v63
  let v65 : BitVec 32 := Scalar.extui v64
  let c0_i32_29 : BitVec 32 := 0#32
  let v66 : BitVec 1 := Scalar.cmpi .ne v65 c0_i32_29
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  transposes_S1x32x8192_S1x8192x32_0_2_1 : S1x32x8192.Transposes [0, 2, 1] S1x8192x32
  shapeCasts_S1x8192x32_S8192x32 : S1x8192x32.ShapeCasts S8192x32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  transposes_S512x32_p1_0_S32x512 : S512x32.Transposes [1, 0] S32x512
  reduces_S512x32_S512 : S512x32.Reduces [1] S512
  shapeCasts_S512_S512x1 : S512.ShapeCasts S512x1
  reduces_S32x512_S512 : S32x512.Reduces [0] S512
  shapeCasts_S512_S1x512 : S512.ShapeCasts S1x512
  broadcasts_S512x1_S512x512 : S512x1.Broadcasts S512x512
  broadcasts_S1x512_S512x512 : S1x512.Broadcasts S512x512
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x32_S32x512_S512x512_1_0_0_1_n_n_wf : DotDims.WF S512x32 S32x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S8192x32.size a
  hwx0_0 : ∀ i : grid0.Coords, EltTy.bits .f32 = 32 ∨ (Rect.block (s := S8192x32) S512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S8192x32.size a
  hwx0_1 : ∀ i : grid0.Coords, EltTy.bits .f32 = 32 ∨ (Rect.block (s := S8192x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S512x32_S32x512_S512x512_1_0_0_1_n_n : DotDims S512x32 S32x512 S512x512 where
  lhsContracting := [1]
  rhsContracting := [0]
  lhsNonContracting := [0]
  rhsNonContracting := [1]
  lhsBatch := []
  rhsBatch := []
  wf := dot_S512x32_S32x512_S512x512_1_0_0_1_n_n_wf

abbrev win0_0 : Pipeline.Window sig grid0 :=
  Pipeline.Window.ofSpec (Memref.whole main_v1) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1x32x8192 : Shape := ⟨3, ![1, 32, 8192]⟩
abbrev S1x8192x32 : Shape := ⟨3, ![1, 8192, 32]⟩
abbrev S_ : Shape := ⟨0, ![]⟩
abbrev S1x8192 : Shape := ⟨2, ![1, 8192]⟩
abbrev S1x8192x1 : Shape := ⟨3, ![1, 8192, 1]⟩
abbrev S1x1x8192 : Shape := ⟨3, ![1, 1, 8192]⟩
abbrev S1x8192x8192 : Shape := ⟨3, ![1, 8192, 8192]⟩

abbrev nBuf : Space → Nat
  | .hbm => 66
  | .vmem => 0
  | .smem => 0
  | _ => 0

abbrev bufTy : (tb : Table) → Fin (tcTables nBuf tb) → BufTy
  | .hbm, ⟨0, _⟩ => ⟨S1x32x8192, .f32⟩
  | .hbm, ⟨1, _⟩ => ⟨S1x8192x32, .f32⟩
  | .hbm, ⟨2, _⟩ => ⟨S1x8192x32, .f32⟩
  | .hbm, ⟨3, _⟩ => ⟨S_, .f32⟩
  | .hbm, ⟨4, _⟩ => ⟨S1x8192, .f32⟩
  | .hbm, ⟨5, _⟩ => ⟨S1x8192x1, .f32⟩
  | .hbm, ⟨6, _⟩ => ⟨S1x1x8192, .f32⟩
  | .hbm, ⟨7, _⟩ => ⟨S1x8192x8192, .f32⟩
  | .hbm, ⟨8, _⟩ => ⟨S1x8192x8192, .f32⟩
  | .hbm, ⟨9, _⟩ => ⟨S1x8192x8192, .f32⟩
  | .hbm, ⟨10, _⟩ => ⟨S1x8192x8192, .f32⟩
  | .hbm, ⟨11, _⟩ => ⟨S_, .f32⟩
  | .hbm, ⟨12, _⟩ => ⟨S1x8192x8192, .f32⟩
  | .hbm, ⟨13, _⟩ => ⟨S1x8192x8192, .f32⟩
  | .hbm, ⟨14, _⟩ => ⟨S1x8192x8192, .f32⟩
  | .hbm, ⟨15, _⟩ => ⟨S_, .f32⟩
  | .hbm, ⟨16, _⟩ => ⟨S1x8192x8192, .f32⟩
  | .hbm, ⟨17, _⟩ => ⟨S1x8192x8192, .f32⟩
  | .hbm, ⟨18, _⟩ => ⟨S_, .f32⟩
  | .hbm, ⟨19, _⟩ => ⟨S1x8192x8192, .f32⟩
  | .hbm, ⟨20, _⟩ => ⟨S1x8192x8192, .i1⟩
  | .hbm, ⟨21, _⟩ => ⟨S_, .f32⟩
  | .hbm, ⟨22, _⟩ => ⟨S_, .f32⟩
  | .hbm, ⟨23, _⟩ => ⟨S1x8192x8192, .f32⟩
  | .hbm, ⟨24, _⟩ => ⟨S1x8192x8192, .f32⟩
  | .hbm, ⟨25, _⟩ => ⟨S1x8192x8192, .f32⟩
  | .hbm, ⟨26, _⟩ => ⟨S_, .f32⟩
  | .hbm, ⟨27, _⟩ => ⟨S_, .f32⟩
  | .hbm, ⟨28, _⟩ => ⟨S1x8192x8192, .f32⟩
  | .hbm, ⟨29, _⟩ => ⟨S1x8192x8192, .f32⟩
  | .hbm, ⟨30, _⟩ => ⟨S_, .f32⟩
  | .hbm, ⟨31, _⟩ => ⟨S1x8192x8192, .f32⟩
  | .hbm, ⟨32, _⟩ => ⟨S1x8192x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x8192x8192, .f32⟩
  | .hbm, ⟨37, _⟩ => ⟨S1x8192x8192, .f32⟩
  | .hbm, ⟨38, _⟩ => ⟨S_, .f32⟩
  | .hbm, ⟨39, _⟩ => ⟨S1x8192x8192, .f32⟩
  | .hbm, ⟨40, _⟩ => ⟨S1x8192x8192, .f32⟩
  | .hbm, ⟨41, _⟩ => ⟨S_, .f32⟩
  | .hbm, ⟨42, _⟩ => ⟨S1x8192x8192, .f32⟩
  | .hbm, ⟨43, _⟩ => ⟨S1x8192x8192, .f32⟩
  | .hbm, ⟨44, _⟩ => ⟨S_, .f32⟩
  | .hbm, ⟨45, _⟩ => ⟨S1x8192x8192, .f32⟩
  | .hbm, ⟨46, _⟩ => ⟨S1x8192x8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x8192x8192, .f32⟩
  | .hbm, ⟨51, _⟩ => ⟨S1x8192x8192, .f32⟩
  | .hbm, ⟨52, _⟩ => ⟨S_, .f32⟩
  | .hbm, ⟨53, _⟩ => ⟨S1x8192x8192, .f32⟩
  | .hbm, ⟨54, _⟩ => ⟨S1x8192x8192, .f32⟩
  | .hbm, ⟨55, _⟩ => ⟨S_, .f32⟩
  | .hbm, ⟨56, _⟩ => ⟨S1x8192x8192, .f32⟩
  | .hbm, ⟨57, _⟩ => ⟨S1x8192x8192, .f32⟩
  | .hbm, ⟨58, _⟩ => ⟨S_, .f32⟩
  | .hbm, ⟨59, _⟩ => ⟨S1x8192x8192, .f32⟩
  | .hbm, ⟨60, _⟩ => ⟨S1x8192x8192, .f32⟩
  | .hbm, ⟨61, _⟩ => ⟨S1x8192x8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S1x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_cst_7 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v21 : Ref sig .tc := ⟨.hbm, 40, rfl⟩
abbrev main_cst_8 : Ref sig .tc := ⟨.hbm, 41, rfl⟩
abbrev main_v22 : Ref sig .tc := ⟨.hbm, 42, rfl⟩
abbrev main_v23 : Ref sig .tc := ⟨.hbm, 43, rfl⟩
abbrev main_cst_9 : Ref sig .tc := ⟨.hbm, 44, rfl⟩
abbrev main_v24 : Ref sig .tc := ⟨.hbm, 45, rfl⟩
abbrev main_v25 : Ref sig .tc := ⟨.hbm, 46, rfl⟩
abbrev main_cst_10 : Ref sig .tc := ⟨.hbm, 47, rfl⟩
abbrev main_cst_11 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_v26 : Ref sig .tc := ⟨.hbm, 54, rfl⟩
abbrev main_cst_12 : Ref sig .tc := ⟨.hbm, 55, rfl⟩
abbrev main_v27 : Ref sig .tc := ⟨.hbm, 56, rfl⟩
abbrev main_v28 : Ref sig .tc := ⟨.hbm, 57, rfl⟩
abbrev main_cst_13 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_14 : Ref sig .tc := ⟨.hbm, 62, rfl⟩
abbrev main_v32 : Ref sig .tc := ⟨.hbm, 63, rfl⟩
abbrev main_cst_15 : Ref sig .tc := ⟨.hbm, 64, rfl⟩
abbrev main_v33 : Ref sig .tc := ⟨.hbm, 65, rfl⟩

abbrev nD : Nat := 1
abbrev τ : Topo := Topo.v7x

variable {F : FTy → Type} [FloatOps F]

class Facts₀ : Prop where
  transposes_S1x32x8192_S1x8192x32_0_2_1 : S1x32x8192.Transposes [0, 2, 1] S1x8192x32
  reducesTo_S1x8192x32_S1x8192_d2 : S1x8192x32.ReducesTo [2] S1x8192
  h_S_ : 0 < S_.numel
  bcast_S1x8192_S1x8192x1_0_1 : S1x8192.BroadcastsInDim S1x8192x1 (![0, 1] : Fin 2 → Fin S1x8192x1.rank)
  bcast_S1x8192_S1x1x8192_0_2 : S1x8192.BroadcastsInDim S1x1x8192 (![0, 2] : Fin 2 → Fin S1x1x8192.rank)
  bcast_S1x8192x1_S1x8192x8192_0_1_2 : S1x8192x1.BroadcastsInDim S1x8192x8192 (![0, 1, 2] : Fin 3 → Fin S1x8192x8192.rank)
  bcast_S1x1x8192_S1x8192x8192_0_1_2 : S1x1x8192.BroadcastsInDim S1x8192x8192 (![0, 1, 2] : Fin 3 → Fin S1x8192x8192.rank)
  bcast_S_S1x8192x8192 : S_.BroadcastsInDim S1x8192x8192 (![] : Fin 0 → Fin S1x8192x8192.rank)
  reducesTo_S1x8192x8192_S_d0_1_2 : S1x8192x8192.ReducesTo [0, 1, 2] S_
  dot_S1x8192x32_S1x8192x32_S1x8192x8192_2_2_1_1_0_0_wf : DotDims.WF S1x8192x32 S1x8192x32 S1x8192x8192 [2] [2] [1] [1] [0] [0]

variable [Facts₀]

def dot_S1x8192x32_S1x8192x32_S1x8192x8192_2_2_1_1_0_0 : DotDims S1x8192x32 S1x8192x32 S1x8192x8192 where
  lhsContracting := [2]
  rhsContracting := [2]
  lhsNonContracting := [1]
  rhsNonContracting := [1]
  lhsBatch := [0]
  rhsBatch := [0]
  wf := dot_S1x8192x32_S1x8192x32_S1x8192x8192_2_2_1_1_0_0_wf

class Facts : Prop extends Facts₀ where

variable [Facts]
-- ==== Proof.KBBase.lean ====
/-
  The run of this program's one kernel region, first part: what the region is entered with and called on.

  @main transposes and flattens its argument into the 8192 × 32 array of points, runs the region, and flattens the
  region's 1 × 1 result into the scalar it returns. The region walks a 16 × 16 grid in row-major order, 256 points;
  at point t = 16·i + j its first window shows rows 512·i … of the points and its second rows 512·j … of the SAME
  array, and its third window is the 1 × 1 result, written back after the last point only. The body clears its 1 × 1
  scratch accumulator at the first point (both coordinates zero), adds the tile's total into it at every point, and
  copies it into the result's buffer at the last point (both coordinates fifteen); at every other point it does not
  touch the result's buffer. Stated for any float instance.
-/
import proofs.«162471_j55697135895164_1_alg».proof.Proof.Gen.Kernel.Launch
import proofs.«162471_j55697135895164_1_alg».proof.Proof.Gen.Kernel.Skeleton
import proofs.«162471_j55697135895164_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the transpose and the
    flattening that come before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two host operations, the region, and the closing flattening: it reduces to the region continued by
    that last operation, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The transpose and the flattening do not write the argument. -/
theorem V_main_arg0 (c : Dev nD) : V m c main_arg0 = m ((c : Thread nD τ).loc main_arg0) := by
  dsimp only [V, V0]
  simp only [hostOps0, List.flatten_cons, List.flatten_nil, List.append_nil]
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is the region-entry contents and whose body leaves the block in place: window 0 … -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- … and window 1. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "Both coordinates are zero", as the body computes it. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcondFirst : ∀ t : Fin cfg0.N, condFirst (grid0.coords t) ↔ t.val = 0 :=
  (by decide +kernel : ∀ t : Fin grid0.N, condFirst (grid0.coords t) ↔ t.val = 0)

/-- "Both coordinates are fifteen", as the body computes it. -/
abbrev condLast (i : grid0.Coords) : Prop := k0_cond2 i = 1#1
/-- It holds at the last point only. -/
theorem hcondLast : ∀ t : Fin cfg0.N, condLast (grid0.coords t) ↔ t.val = 255 :=
  (by decide +kernel : ∀ t : Fin grid0.N, condLast (grid0.coords t) ↔ t.val = 255)

/-- The grid's points in row-major order: point `t` has coordinates (t / 16, t % 16). -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-! ## Where the windows are idle and where the result is written back -/

theorem live0 : ∀ t : Fin cfg0.N, cfg0.idle 0 (grid0.coords t) = false := fun _ => rfl
theorem live1 : ∀ t : Fin cfg0.N, cfg0.idle 1 (grid0.coords t) = false := fun _ => rfl
/-- Away from the last point the result's window is idle … -/
theorem idle2 : ∀ t : Fin cfg0.N, ¬condLast (grid0.coords t) → cfg0.idle 2 (grid0.coords t) = true := by decide +kernel
/-- … and not written back; -/
theorem noFlush2 : ∀ t : Fin cfg0.N, ¬condLast (grid0.coords t) → (cfg0.win 2).flush t = false := by decide +kernel
/-- at the last point it is live. -/
theorem live2 : ∀ t : Fin cfg0.N, condLast (grid0.coords t) → cfg0.idle 2 (grid0.coords t) = false := by decide +kernel

/-! ## The memrefs the body is called on -/

abbrev ms0 (t : Fin cfg0.N) : Memref sig .tc .vmem S512x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The scratch accumulator: a whole scoped buffer of the kernel's own. -/
abbrev scM : Memref sig .tc .vmem S1x1 .f32 := Memref.whole cc0_scratch0

/-- What the region's invariant is before the first point: the scratch at some contents, the generator register at
    some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.LibWholeStores.lean ====
/-
  Whole-buffer loads and stores. A kernel body that keeps an accumulator in a buffer reads and writes it through
  the rectangle at zero offsets of the buffer's own extents. Through that rectangle a load reads the contents, a
  store leaves its payload whatever was stored before, and a load after such a store reads the payload. The
  statements are over any view, any value type and any earlier list of stores.
-/
import Idealize.ShloMosaic.Lib.Pipeline.Value
import Idealize.ShloMosaic.Lib.Pipeline.Frame
import Idealize.ShloMosaic.Lib.Pipeline.FrameBody

noncomputable section

namespace Idealize.ShloMosaic.WholeStores

open Idealize.ShloMosaic

variable {Val : EltTy → Type} {S : Shape} {e : EltTy}

/-- After a list of stores whose LAST one goes through the whole rectangle, the buffer reads as that store's
    payload: earlier stores and earlier contents are overwritten. -/
theorem read_writes_whole_last [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole rectangle, after stores the last of which went through the whole rectangle, reads
    that store's payload. -/
theorem readCov_whole_last [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A load through the whole rectangle of a whole buffer whose contents read as X reads X. -/
theorem readAt_whole_unread {sig : RefSig} {κ : Kind} {sp : Space} {m : Memref sig κ sp S e} (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Idealize.ShloMosaic.WholeStores

end
-- ==== Proof.KBBody.lean ====
/-
  The kernel body run once, in each of the three situations the grid meets: at the first point (the accumulator is
  cleared, then the tile's total added), at a point strictly between the first and the last (the total added onto what
  the point before left), and at the last point (the total added, then the accumulator copied into the result's
  buffer). In every case the two input buffers are left as found; away from the last point so is the result's buffer.
-/
import proofs.«162471_j55697135895164_1_alg».proof.Proof.KBBase
import proofs.«162471_j55697135895164_1_alg».proof.Proof.LibWholeStores

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One step of the accumulation: the accumulator `a` plus the total, over the tile of the two blocks `x0` and `x1`, of the
    body's summand (the body's own arithmetic, as the generated skeleton names it). -/
def accStep (x0 x1 : Vec F S512x32 .f32) (a : Vec F S1x1 .f32) : Vec F S1x1 .f32 :=
  k0_pay1 (k0_pay3 x0 x1) (k0_pay4 x0 x1) (Scalar.ofBits .f32 0x40000000#32) a

/-- What the accumulator is cleared to. -/
def accZero : Vec F S1x1 .f32 := k0_pay2 (F := F)

theorem off00 : (![0, 0] : Fin S1x1.rank → Nat) = fun _ => 0 := by
  funext a; match a with | ⟨0, _⟩ => rfl | ⟨1, _⟩ => rfl
theorem off00' : (![0, 0] : Fin S512x32.rank → Nat) = fun _ => 0 := by
  funext a; match a with | ⟨0, _⟩ => rfl | ⟨1, _⟩ => rfl

set_option maxHeartbeats 1000000 in
/-- Between the first and the last point. -/
theorem run_mid (c : Dev nD) (i : grid0.Coords) (arg2 : Memref sig .tc .vmem S512x32 .f32) (harg2 : arg2.IsWhole) (arg3 : Memref sig .tc .vmem S512x32 .f32) (harg3 : arg3.IsWhole)
    (arg4 : Memref sig .tc .vmem S1x1 .f32) (harg4 : arg4.IsWhole) (arg5 : Memref sig .tc .vmem S1x1 .f32) (harg5 : arg5.IsWhole)
    (hF : ¬condFirst i) (hL : ¬condLast i) (x0 x1 : Vec F S512x32 .f32) (xo xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (accStep x0 x1 xs)) -∗ K ⟨⟩))
      ⊢ wp frame (wpE (defs₀ (F := F)) Variants.none c none) E (cc0__kernel i arg2 harg2 arg3 harg3 arg4 harg4 arg5 harg5) K := by
  sl_unfold [cc0__kernel]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [WholeStores.read_writes_whole_last _ _ off00]
  simp only [WholeStores.readAt_whole_unread harg2 off00', WholeStores.readAt_whole_unread harg3 off00', WholeStores.readAt_whole_unread harg5 off00, WholeStores.readCov_whole_last (S := S1x1) arg5.view off00]
  rfl

set_option maxHeartbeats 1000000 in
/-- At the first point: the accumulator is cleared first, whatever it held. -/
theorem run_first (c : Dev nD) (i : grid0.Coords) (arg2 : Memref sig .tc .vmem S512x32 .f32) (harg2 : arg2.IsWhole) (arg3 : Memref sig .tc .vmem S512x32 .f32) (harg3 : arg3.IsWhole)
    (arg4 : Memref sig .tc .vmem S1x1 .f32) (harg4 : arg4.IsWhole) (arg5 : Memref sig .tc .vmem S1x1 .f32) (harg5 : arg5.IsWhole)
    (hF : condFirst i) (hL : ¬condLast i) (x0 x1 : Vec F S512x32 .f32) (xo xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (accStep x0 x1 accZero)) -∗ K ⟨⟩))
      ⊢ wp frame (wpE (defs₀ (F := F)) Variants.none c none) E (cc0__kernel i arg2 harg2 arg3 harg3 arg4 harg4 arg5 harg5) K := by
  sl_unfold [cc0__kernel]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [WholeStores.read_writes_whole_last _ _ off00]
  simp only [WholeStores.readAt_whole_unread harg2 off00', WholeStores.readAt_whole_unread harg3 off00', WholeStores.readAt_whole_unread harg5 off00, WholeStores.readCov_whole_last (S := S1x1) arg5.view off00]
  rfl

set_option maxHeartbeats 1000000 in
/-- At the last point: after the addition the accumulator is copied into the result's buffer, whatever that held. -/
theorem run_last (c : Dev nD) (i : grid0.Coords) (arg2 : Memref sig .tc .vmem S512x32 .f32) (harg2 : arg2.IsWhole) (arg3 : Memref sig .tc .vmem S512x32 .f32) (harg3 : arg3.IsWhole)
    (arg4 : Memref sig .tc .vmem S1x1 .f32) (harg4 : arg4.IsWhole) (arg5 : Memref sig .tc .vmem S1x1 .f32) (harg5 : arg5.IsWhole)
    (hF : ¬condFirst i) (hL : condLast i) (x0 x1 : Vec F S512x32 .f32) (xo xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (accStep x0 x1 xs)
            ∗ owns (c : Thread nD τ) arg5 fullShare (accStep x0 x1 xs)) -∗ K ⟨⟩))
      ⊢ wp frame (wpE (defs₀ (F := F)) Variants.none c none) E (cc0__kernel i arg2 harg2 arg3 harg3 arg4 harg4 arg5 harg5) K := by
  sl_unfold [cc0__kernel]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [WholeStores.read_writes_whole_last _ _ off00]
    simp only [WholeStores.readAt_whole_unread harg2 off00', WholeStores.readAt_whole_unread harg3 off00', WholeStores.readAt_whole_unread harg5 off00, WholeStores.readCov_whole_last (S := S1x1) arg5.view off00]
    rfl
  iexists _; isplitr
  swap; · iexact HS
  ipureintro
  sl_unfold_run_names
  rw [WholeStores.read_writes_whole_last _ _ off00]
  simp only [WholeStores.readAt_whole_unread harg2 off00', WholeStores.readAt_whole_unread harg3 off00', WholeStores.readAt_whole_unread harg5 off00, WholeStores.readCov_whole_last (S := S1x1) arg5.view off00]
  rfl

end Cert.Kernel.Hand

end
-- ==== Proof.KBData.lean ====
/-
  The region's proof data and the body obligation.

  After point n the scratch accumulator holds the step function applied n + 1 times from the cleared value, over the
  points' pairs of blocks; that is also what the body copies into the result's buffer at the last point. The two input
  buffers hold their windows' blocks at every point. Between points the region's invariant is the scratch at that
  accumulated value (before the first point: at anything) and the generator register at some state. The two input
  windows show the same array, so each holds half of its share.
-/
import proofs.«162471_j55697135895164_1_alg».proof.Proof.KBBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator point by point -/

/-- What the accumulator holds after the body at position `n`. -/
def accAt (c : Dev nD) : (n : ℕ) → n < cfg0.N → Vec F S1x1 .f32
  | 0, hn => accStep (iblk m c 0 ⟨0, hn⟩) (iblk m c 1 ⟨0, hn⟩) accZero
  | n + 1, hn => accStep (iblk m c 0 ⟨n + 1, hn⟩) (iblk m c 1 ⟨n + 1, hn⟩) (accAt c n (Nat.lt_of_succ_lt hn))

theorem accAt_zero (c : Dev nD) (t : Fin cfg0.N) (hz : t.val = 0) :
    accAt m c t.val t.isLt = accStep (iblk m c 0 t) (iblk m c 1 t) accZero := by
  obtain ⟨n, hn⟩ := t
  cases n with
  | zero => rfl
  | succ n => exact absurd hz (Nat.succ_ne_zero n)

theorem accAt_pos (c : Dev nD) (t : Fin cfg0.N) (hz : t.val ≠ 0) :
    accAt m c t.val t.isLt
      = accStep (iblk m c 0 t) (iblk m c 1 t) (accAt m c (t.val - 1) (Nat.lt_of_le_of_lt (Nat.sub_le _ _) t.isLt)) := by
  obtain ⟨n, hn⟩ := t
  cases n with
  | zero => exact absurd rfl hz
  | succ n => rfl

/-! ## The invariant between points -/

def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- On core `c`: the arrays as the region finds them; after the body at point `t` each input's buffer at its block and
    the result's buffer at the accumulator (consulted at the last point only: elsewhere that window is idle); the
    invariant above; the two input windows each at half of their common array's share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: by the point's place in the grid one of the three runs applies; the invariant hands it the
    scratch at what the point before left (at anything at the first point) and takes it back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 256 := lt_of_lt_of_eq t.isLt (show cfg0.N = 256 from N_0)
  by_cases hz : t.val = 0
  · have hF : condFirst (grid0.coords t) := (hcondFirst t).mpr hz
    have hL : ¬condLast (grid0.coords t) := fun h => by have := (hcondLast t).mp h; omega
    rw [Dat.leavesExact_idle (dats m 0 c) 2 t (idle2 t hL) (noFlush2 t hL)]
    rw [PhiS_castSucc m c t, PhiS_zero m c _ _ hz, PhiA0_eq, accAt_zero m c t hz]
    iintro ⟨⟨⟨%ds, HS⟩, Hg⟩, Ho, ⟨%d0, H0⟩, ⟨%d1, H1⟩, ⟨%d2, H2⟩⟩
    iapply (run_first c (grid0.coords t) _ _ _ _ _ _ _ _ hF hL (iblk m c 0 t) (iblk m c 1 t) _ ds Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexists _; iexact H2
  · have hF : ¬condFirst (grid0.coords t) := fun h => hz ((hcondFirst t).mp h)
    rw [PhiS_castSucc m c t, PhiS_pos m c _ _ hz, accAt_pos m c t hz]
    by_cases hl : t.val = 255
    · have hL : condLast (grid0.coords t) := (hcondLast t).mpr hl
      rw [show (dats m 0 c).leavesExact 2 t = owns (c : Thread nD τ) (ms2 t) fullShare ((dats m 0 c).after 2 t) from by
        unfold Dat.leavesExact; rw [live2 t hL], after2, accAt_pos m c t hz]
      iintro ⟨⟨HS, Hg⟩, Ho, ⟨%d0, H0⟩, ⟨%d1, H1⟩, ⟨%d2, H2⟩⟩
      iapply (run_last c (grid0.coords t) _ _ _ _ _ _ _ _ hF hL (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · have hL : ¬condLast (grid0.coords t) := fun h => hl ((hcondLast t).mp h)
      rw [Dat.leavesExact_idle (dats m 0 c) 2 t (idle2 t hL) (noFlush2 t hL)]
      iintro ⟨⟨HS, Hg⟩, Ho, ⟨%d0, H0⟩, ⟨%d1, H1⟩, ⟨%d2, H2⟩⟩
      iapply (run_mid c (grid0.coords t) _ _ _ _ _ _ _ _ hF hL (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: the accumulator's value is forgotten. -/
theorem hout (c : Dev nD) : (dats m 0 c).Φ (Fin.last cfg0.N) ⊢ Pipeline.ΦA spec0 c := by
  have ht : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨HS0, Hg⟩
  isplitl [HS0]
  · iexists _; iexact HS0
  iexact Hg

end Cert.Kernel.Hand

end
-- ==== Proof.KBLaunch.lean ====
/-
  The launch: @main run from any memory.

  The two input windows show one array, so the region takes that array's buffer split into two half shares, one per
  window, and hands the halves back joined only in what the final state says of it. After the region the closing
  operation flattens the 1 × 1 result into the scalar @main returns; it reads the result array at what the region left
  in it and writes the scalar's buffer, touching nothing else. Every weakly fair execution therefore ends, without a
  fault, with the scalar at the flattening of the result array's final contents and the argument as it was.
-/
import proofs.«162471_j55697135895164_1_alg».proof.Proof.KBData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shared array, split between its two windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The region's arrays, spelt out: the points' buffer at its left half for the first window and at its right half for
    the second, the result's buffer at the full share. -/
theorem arrays_plain (c : Dev nD) (G : (w : Fin cfg0.W) → Buf (Elt F) ((cfg0.win w).arr.view.loc (c.tc : Thread nD τ))) :
    ((dats m 0 c).arrays G : sProp 𝕄)
      = iprop((((c.tc : Thread nD τ).loc main_v1) ↦{fullShare.left} G 0) ∗ (((c.tc : Thread nD τ).loc main_v1) ↦{fullShare.right} G 1)
          ∗ (((c.tc : Thread nD τ).loc main_v2) ↦{fullShare} G 2)) := by
  unfold Dat.arrays
  rw [bigSep_W0, share0, share1, share2,
    show ((cfg0.win 0).arr.view.set) = Finset.univ from (arr_whole0 0).set_eq_univ,
    show ((cfg0.win 2).arr.view.set) = Finset.univ from (arr_whole0 2).set_eq_univ]

/-- The buffers behind the windows' arrays, whole at the full share, make the region's arrays at entry: the points'
    buffer is split into its two halves, one per input window. -/
theorem hsplit (c : Dev nD) :
    (Pipeline.arrBufs spec0 c (V m c) : sProp 𝕄) ⊢ (dats m 0 c).arrays ((dats m 0 c).arrAt · 0) := by
  rw [arrays_plain]
  unfold Pipeline.arrBufs
  rw [show (Finset.univ.image (Pipeline.arrRef spec0) : Finset (Ref sig .tc)) = {main_v1, main_v2} from by decide]
  rw [BI.bigSep_insert (by decide), BI.bigSep_singleton]
  refine (sep_mono ((pointsTo_share (PosShare.mem_left_op_right fullShare)).1) .rfl).trans ?_
  exact sep_assoc.1

/-! ## The closing flattening -/

/-- The result array at the region's exit. -/
abbrev resArr (c : Dev nD) : Buf (Elt F) ((c : Thread nD τ).loc main_v2) := (dats m 0 c).arrAt 2 cfg0.N

/-- The scalar the closing operation makes of it. -/
def resScalar (c : Dev nD) : Buf (Elt F) ((c : Thread nD τ).loc main_v3) :=
  fun i => shapeCast S_ (resArr m c) shapeCasts_S1x1_S_ i

/-- The buffers' contents at the region's exit: the result array at its final contents, the rest as at entry. -/
def Vexit (c : Dev nD) : Valuation τ sig (Elt F) := Function.update (V0 m c) (Proc.devRef .tc main_v2) (resArr m c)

/-- … and after the closing operation. -/
def Vfin (c : Dev nD) (b : Ref sig .tc) : Buf (Elt F) ((c : Thread nD τ).loc b) := StableHlo.after hostOps1 (Vexit m c) (Proc.devRef .tc b)

theorem Vexit_v2 (c : Dev nD) : Vexit m c (Proc.devRef .tc main_v2) = resArr m c := by
  unfold Vexit; rw [Function.update_self]

theorem Vexit_ne (c : Dev nD) (b : Ref sig .tc) (hb : b ≠ main_v2) : Vexit m c (Proc.devRef .tc b) = V m c b := by
  unfold Vexit; rw [Function.update_of_ne (fun e => hb (Proc.devRef_injective _ e))]

theorem Vfin_v3 (c : Dev nD) : Vfin m c main_v3 = resScalar m c := by
  unfold Vfin resScalar
  simp only [hostOps1, StableHlo.after_cons, StableHlo.after_nil]
  rw [StableHlo.reshape_result', Vexit_v2]
  rfl

theorem Vfin_ne (c : Dev nD) (b : Ref sig .tc) (hb : b ≠ main_v3) : Vfin m c b = Vexit m c (Proc.devRef .tc b) := by
  unfold Vfin
  refine StableHlo.after_of_forall_not_mem _ _ fun op hop => ?_
  simp only [hostOps1, List.mem_cons, List.mem_nil_iff, or_false] at hop
  subst hop
  simp only [StableHlo.reshape_writes, Finset.mem_singleton]
  exact fun e => hb (Proc.devRef_injective _ e)

theorem after_v2 (c : Dev nD) : StableHlo.after hostOps1 (Vexit m c) (Proc.devRef .tc main_v2) = resArr m c :=
  (Vfin_ne m c main_v2 (by decide)).trans (Vexit_v2 m c)
theorem after_v3 (c : Dev nD) : StableHlo.after hostOps1 (Vexit m c) (Proc.devRef .tc main_v3) = resScalar m c :=
  Vfin_v3 m c

/-- The two buffers the closing operation touches. -/
def S23 : Finset (DevRef τ sig) := {Proc.devRef .tc main_v2, Proc.devRef .tc main_v3}

theorem S23_ne : (Proc.devRef .tc main_v2 : DevRef τ sig) ∉ ({Proc.devRef .tc main_v3} : Finset (DevRef τ sig)) := by
  rw [Finset.mem_singleton]; exact StableHlo.devRef_ne_of_ne (by decide)

theorem held_S23 (c : Dev nD) (W : Valuation τ sig (Elt F)) :
    (StableHlo.held (c.tc : Thread nD τ) S23 W : sProp 𝕄)
      = iprop((((c.tc : Thread nD τ).loc main_v2) ↦{fullShare} W (Proc.devRef .tc main_v2))
          ∗ (((c.tc : Thread nD τ).loc main_v3) ↦{fullShare} W (Proc.devRef .tc main_v3))) := by
  unfold StableHlo.held S23
  rw [BI.bigSep_insert S23_ne, BI.bigSep_singleton]
  rfl

/-- At the region's exit the two buffers hold the result array's final contents and the scalar's entry contents, -/
theorem held_exit (c : Dev nD) :
    (StableHlo.held (c.tc : Thread nD τ) S23 (Vexit m c) : sProp 𝕄)
      = iprop((((c.tc : Thread nD τ).loc main_v2) ↦{fullShare} resArr m c)
          ∗ (((c.tc : Thread nD τ).loc main_v3) ↦{fullShare} V m c main_v3)) := by
  rw [held_S23, Vexit_v2, Vexit_ne m c main_v3 (by decide)]

/-- and after the closing operation the same array and its flattening. -/
theorem held_after (c : Dev nD) :
    (StableHlo.held (c.tc : Thread nD τ) S23 (StableHlo.after hostOps1 (Vexit m c)) : sProp 𝕄)
      = iprop((((c.tc : Thread nD τ).loc main_v2) ↦{fullShare} resArr m c)
          ∗ (((c.tc : Thread nD τ).loc main_v3) ↦{fullShare} resScalar m c)) := by
  rw [held_S23, after_v2, after_v3]

theorem hostOps1_S23 : ∀ op ∈ (hostOps1 : List (HloOp τ sig (Elt F))), op.bufs ⊆ S23 := by
  intro op hop
  simp only [hostOps1, List.mem_cons, List.mem_nil_iff, or_false] at hop
  subst hop
  intro b hb
  exact hb

theorem hostOps1_fresh' : ∀ op ∈ (hostOps1 : List (HloOp τ sig (Elt F))), op.fresh = ∅ :=
  List.forall_iff_forall_mem.mp hostOps1_fresh

-- the rule for a line of host operations is stated for any thread; at the core's thread its application unifies
-- only when unification may unfold plain definitions in a metavariable's type
set_option backward.isDefEq.respectTransparency.types false in
/-- The closing operation, run from the two buffers it touches: the result array is read, the scalar's buffer ends at
    the array's flattening. -/
theorem tail_run (c : Dev nD) {β : Type} (k : PUnit → Prog (TpuEff nD τ sig (Elt F) (Pipeline.Sig Λ₀ (Fin 1) fun p => (pcfgs (F := F) p).Adm) .tc) β)
    (K : β → sProp 𝕄) :
    iprop((boundary (c.tc : Thread nD τ)
          ∗ ((((c.tc : Thread nD τ).loc main_v2) ↦{fullShare} resArr m c) ∗ (((c.tc : Thread nD τ).loc main_v3) ↦{fullShare} V m c main_v3)))
        ∗ ((boundary (c.tc : Thread nD τ)
            ∗ ((((c.tc : Thread nD τ).loc main_v2) ↦{fullShare} resArr m c) ∗ (((c.tc : Thread nD τ).loc main_v3) ↦{fullShare} resScalar m c)))
          -∗ wp frame (wpE (defs (F := F)) (Variants.lift Variants.none) (c.tc : Thread nD τ) none) Set.univ (k ⟨⟩) K))
      ⊢ wp frame (wpE (defs (F := F)) (Variants.lift Variants.none) (c.tc : Thread nD τ) none) Set.univ (StableHlo.seq hostOps1 >>= k) K := by
  rw [← held_exit, ← held_after]
  exact BIClass.wand_elim (StableHlo.wp_seq (Variants.lift Variants.none) none Set.univ c S23 k hostOps1 hostOps1_S23 hostOps1_fresh' (Vexit m c))

/-- Nothing is left to run after it. -/
theorem tail_end (c : Dev nD) (Q' : PUnit → sProp 𝕄) :
    Q' ⟨⟩ ⊢ wp frame (wpE (defs (F := F)) (Variants.lift Variants.none) (c.tc : Thread nD τ) none) Set.univ (Pipeline.chain []) Q' := by
  rw [Pipeline.chain_nil, wp_pure]
  iintro H; imodintro; iexact H

/-- From the region's exit — the region boundary, the arrays at their final contents, the bypassing buffers as at entry —
    the closing operation runs and hands back the arrays unchanged and the bypassing buffers at `Vfin`. -/
theorem htail (c : Dev nD) (Q' : PUnit → sProp 𝕄) :
    iprop((iprop((dats m 0 c).arrays ((dats m 0 c).arrAt · cfg0.N)
            ∗ Pipeline.unscopedRestP (Ix := Unit) (Name := ℕ) (U := UR sig nD τ) (Lvl := ℕ) Pipeline.Prefetch.none spec0 c (Vfin m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ
          (Pipeline.chain [StableHlo.seq hostOps1]) Q' := by
  rw [Pipeline.unscopedRestP_none, Pipeline.unscopedRestP_none, unscopedRest0_eq, unscopedRest0_eq]
  rw [arrays_plain]
  rw [Vfin_ne m c main_arg0 (by decide), Vfin_ne m c main_v0 (by decide), Vfin_v3,
    Vexit_ne m c main_arg0 (by decide), Vexit_ne m c main_v0 (by decide)]
  rw [Pipeline.chain_cons]
  iintro ⟨Hk, Hb, ⟨A0, A1, A2⟩, ⟨Z0, Z1, Z3⟩⟩
  iapply (tail_run m c (fun _ => Pipeline.chain []) Q')
  isplitl [Hb A2 Z3]
  · isplitl [Hb]; · iexact Hb
    isplitl [A2]; · iexact A2
    iexact Z3
  iintro ⟨Hb, A2, Z3⟩
  iapply (tail_end (F := F) c Q')
  iapply Hk
  isplitl [A0 A1 A2]
  · isplitl [A0]; · iexact A0
    isplitl [A1]; · iexact A1
    iexact A2
  isplitl [Z0]; · iexact Z0
  isplitl [Z1]; · iexact Z1
  iexact Z3

/-! ## The run -/

theorem Vfin_arg0 (c : Dev nD) : Vfin m c main_arg0 = m ((c.tc : Thread nD τ).loc main_arg0) :=
  (Vfin_ne m c main_arg0 (by decide)).trans ((Vexit_ne m c main_arg0 (by decide)).trans (V_main_arg0 m c))

-- the launch theorem's implicit arguments are found by unifying its conclusion with this one, which takes unfolding
-- plain definitions in a metavariable's type
set_option backward.isDefEq.respectTransparency.types false in
/-- At the compiled mesh, for any float values, from any memory with zero counters: every weakly fair execution of @main
    terminates, nothing faulting, with the returned scalar at the flattening of what the region left in its result
    array and the argument unchanged. -/
theorem run_main : θ_run defs (onTc (τ := τ) (main (F := F))) ⟨m, fun _ => 0, ρ⟩ (fun r => ∀ c : Dev nD,
      r.2.mem ((c.tc : Thread nD τ).loc main_v3) = resScalar m c
      ∧ r.2.mem ((c.tc : Thread nD τ).loc main_arg0) = m ((c.tc : Thread nD τ).loc main_arg0)) := by
  classical
  exact Pipeline.θ_run_region_pf_tail (fun q => (cfgs q).toPCfg) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (fun q => (cfgs q).toPCfg) (fun q => (cfgs q).toPCfg_adm)) cellOf_inj)
      (Pipeline.launchToks (Pipeline.pin (fun q => (cfgs q).toPCfg) (fun q => (cfgs q).toPCfg_adm)) cellOf_inj))
    (hu₀ := by
      iintro Hu; imodintro
      isplitl [Hu]
      · iapply (show (ownU _ : sProp 𝕄) ⊢ BI.own (emb₁ (initOf (Pipeline.cells (Pipeline.pin (fun q => (cfgs q).toPCfg) (fun q => (cfgs q).toPCfg_adm)) cellOf_inj)
          (Pipeline.launchToks (Pipeline.pin (fun q => (cfgs q).toPCfg) (fun q => (cfgs q).toPCfg_adm)) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vfin m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Vfin m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vfin m c) s')
      isplitl [HU] <;> iassumption)
    (hQ := fun s h c => ⟨((h c).2.2 main_v3 (by decide)).trans (Vfin_v3 m c), ((h c).2.2 main_arg0 (by decide)).trans (Vfin_arg0 m c)⟩)

/-- The frame: @main runs to the end, faulting nowhere, and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.KIBase.lean ====
/-
  The run of this program's one kernel region, first part: what the region is entered with and called on.

  @main transposes and flattens its argument into the 8192 × 32 array of points, runs the region, and flattens the
  region's 1 × 1 result into the scalar it returns. The region walks a 16 × 16 grid in row-major order, 256 points;
  at point t = 16·i + j its first window shows rows 512·i … of the points and its second rows 512·j … of the SAME
  array, and its third window is the 1 × 1 result, written back after the last point only. The body clears its 1 × 1
  scratch accumulator at the first point (both coordinates zero), adds the tile's total into it at every point, and
  copies it into the result's buffer at the last point (both coordinates fifteen); at every other point it does not
  touch the result's buffer. Stated for any float instance.
-/
import proofs.«162471_j55697135895164_1_alg».proof.Proof.Gen.KernelIdeal.Launch
import proofs.«162471_j55697135895164_1_alg».proof.Proof.Gen.KernelIdeal.Skeleton
import proofs.«162471_j55697135895164_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the transpose and the
    flattening that come before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two host operations, the region, and the closing flattening: it reduces to the region continued by
    that last operation, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The transpose and the flattening do not write the argument. -/
theorem V_main_arg0 (c : Dev nD) : V m c main_arg0 = m ((c : Thread nD τ).loc main_arg0) := by
  dsimp only [V, V0]
  simp only [hostOps0, List.flatten_cons, List.flatten_nil, List.append_nil]
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is the region-entry contents and whose body leaves the block in place: window 0 … -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- … and window 1. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "Both coordinates are zero", as the body computes it. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcondFirst : ∀ t : Fin cfg0.N, condFirst (grid0.coords t) ↔ t.val = 0 :=
  (by decide +kernel : ∀ t : Fin grid0.N, condFirst (grid0.coords t) ↔ t.val = 0)

/-- "Both coordinates are fifteen", as the body computes it. -/
abbrev condLast (i : grid0.Coords) : Prop := k0_cond2 i = 1#1
/-- It holds at the last point only. -/
theorem hcondLast : ∀ t : Fin cfg0.N, condLast (grid0.coords t) ↔ t.val = 255 :=
  (by decide +kernel : ∀ t : Fin grid0.N, condLast (grid0.coords t) ↔ t.val = 255)

/-- The grid's points in row-major order: point `t` has coordinates (t / 16, t % 16). -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-! ## Where the windows are idle and where the result is written back -/

theorem live0 : ∀ t : Fin cfg0.N, cfg0.idle 0 (grid0.coords t) = false := fun _ => rfl
theorem live1 : ∀ t : Fin cfg0.N, cfg0.idle 1 (grid0.coords t) = false := fun _ => rfl
/-- Away from the last point the result's window is idle … -/
theorem idle2 : ∀ t : Fin cfg0.N, ¬condLast (grid0.coords t) → cfg0.idle 2 (grid0.coords t) = true := by decide +kernel
/-- … and not written back; -/
theorem noFlush2 : ∀ t : Fin cfg0.N, ¬condLast (grid0.coords t) → (cfg0.win 2).flush t = false := by decide +kernel
/-- at the last point it is live. -/
theorem live2 : ∀ t : Fin cfg0.N, condLast (grid0.coords t) → cfg0.idle 2 (grid0.coords t) = false := by decide +kernel

/-! ## The memrefs the body is called on -/

abbrev ms0 (t : Fin cfg0.N) : Memref sig .tc .vmem S512x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The scratch accumulator: a whole scoped buffer of the kernel's own. -/
abbrev scM : Memref sig .tc .vmem S1x1 .f32 := Memref.whole cc0_scratch0

/-- What the region's invariant is before the first point: the scratch at some contents, the generator register at
    some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KIBody.lean ====
/-
  The kernel body run once, in each of the three situations the grid meets: at the first point (the accumulator is
  cleared, then the tile's total added), at a point strictly between the first and the last (the total added onto what
  the point before left), and at the last point (the total added, then the accumulator copied into the result's
  buffer). In every case the two input buffers are left as found; away from the last point so is the result's buffer.
-/
import proofs.«162471_j55697135895164_1_alg».proof.Proof.KIBase
import proofs.«162471_j55697135895164_1_alg».proof.Proof.LibWholeStores

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One step of the accumulation: the accumulator `a` plus the total, over the tile of the two blocks `x0` and `x1`, of the
    body's summand (the body's own arithmetic, as the generated skeleton names it). -/
def accStep (x0 x1 : Vec F S512x32 .f32) (a : Vec F S1x1 .f32) : Vec F S1x1 .f32 :=
  k0_pay1 (k0_pay3 x0 x1) (k0_pay4 x0 x1) (Scalar.ofBits .f32 0x40000000#32) a

/-- What the accumulator is cleared to. -/
def accZero : Vec F S1x1 .f32 := k0_pay2 (F := F)

theorem off00 : (![0, 0] : Fin S1x1.rank → Nat) = fun _ => 0 := by
  funext a; match a with | ⟨0, _⟩ => rfl | ⟨1, _⟩ => rfl
theorem off00' : (![0, 0] : Fin S512x32.rank → Nat) = fun _ => 0 := by
  funext a; match a with | ⟨0, _⟩ => rfl | ⟨1, _⟩ => rfl

set_option maxHeartbeats 1000000 in
/-- Between the first and the last point. -/
theorem run_mid (c : Dev nD) (i : grid0.Coords) (arg2 : Memref sig .tc .vmem S512x32 .f32) (harg2 : arg2.IsWhole) (arg3 : Memref sig .tc .vmem S512x32 .f32) (harg3 : arg3.IsWhole)
    (arg4 : Memref sig .tc .vmem S1x1 .f32) (harg4 : arg4.IsWhole) (arg5 : Memref sig .tc .vmem S1x1 .f32) (harg5 : arg5.IsWhole)
    (hF : ¬condFirst i) (hL : ¬condLast i) (x0 x1 : Vec F S512x32 .f32) (xo xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (accStep x0 x1 xs)) -∗ K ⟨⟩))
      ⊢ wp frame (wpE (defs₀ (F := F)) Variants.none c none) E (cc0__kernel i arg2 harg2 arg3 harg3 arg4 harg4 arg5 harg5) K := by
  sl_unfold [cc0__kernel]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [WholeStores.read_writes_whole_last _ _ off00]
  simp only [WholeStores.readAt_whole_unread harg2 off00', WholeStores.readAt_whole_unread harg3 off00', WholeStores.readAt_whole_unread harg5 off00, WholeStores.readCov_whole_last (S := S1x1) arg5.view off00]
  rfl

set_option maxHeartbeats 1000000 in
/-- At the first point: the accumulator is cleared first, whatever it held. -/
theorem run_first (c : Dev nD) (i : grid0.Coords) (arg2 : Memref sig .tc .vmem S512x32 .f32) (harg2 : arg2.IsWhole) (arg3 : Memref sig .tc .vmem S512x32 .f32) (harg3 : arg3.IsWhole)
    (arg4 : Memref sig .tc .vmem S1x1 .f32) (harg4 : arg4.IsWhole) (arg5 : Memref sig .tc .vmem S1x1 .f32) (harg5 : arg5.IsWhole)
    (hF : condFirst i) (hL : ¬condLast i) (x0 x1 : Vec F S512x32 .f32) (xo xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo
            ∗ owns (c : Thread nD τ) arg5 fullShare (accStep x0 x1 accZero)) -∗ K ⟨⟩))
      ⊢ wp frame (wpE (defs₀ (F := F)) Variants.none c none) E (cc0__kernel i arg2 harg2 arg3 harg3 arg4 harg4 arg5 harg5) K := by
  sl_unfold [cc0__kernel]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_run_names
  rw [WholeStores.read_writes_whole_last _ _ off00]
  simp only [WholeStores.readAt_whole_unread harg2 off00', WholeStores.readAt_whole_unread harg3 off00', WholeStores.readAt_whole_unread harg5 off00, WholeStores.readCov_whole_last (S := S1x1) arg5.view off00]
  rfl

set_option maxHeartbeats 1000000 in
/-- At the last point: after the addition the accumulator is copied into the result's buffer, whatever that held. -/
theorem run_last (c : Dev nD) (i : grid0.Coords) (arg2 : Memref sig .tc .vmem S512x32 .f32) (harg2 : arg2.IsWhole) (arg3 : Memref sig .tc .vmem S512x32 .f32) (harg3 : arg3.IsWhole)
    (arg4 : Memref sig .tc .vmem S1x1 .f32) (harg4 : arg4.IsWhole) (arg5 : Memref sig .tc .vmem S1x1 .f32) (harg5 : arg5.IsWhole)
    (hF : ¬condFirst i) (hL : condLast i) (x0 x1 : Vec F S512x32 .f32) (xo xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare (accStep x0 x1 xs)
            ∗ owns (c : Thread nD τ) arg5 fullShare (accStep x0 x1 xs)) -∗ K ⟨⟩))
      ⊢ wp frame (wpE (defs₀ (F := F)) Variants.none c none) E (cc0__kernel i arg2 harg2 arg3 harg3 arg4 harg4 arg5 harg5) K := by
  sl_unfold [cc0__kernel]
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [WholeStores.read_writes_whole_last _ _ off00]
    simp only [WholeStores.readAt_whole_unread harg2 off00', WholeStores.readAt_whole_unread harg3 off00', WholeStores.readAt_whole_unread harg5 off00, WholeStores.readCov_whole_last (S := S1x1) arg5.view off00]
    rfl
  iexists _; isplitr
  swap; · iexact HS
  ipureintro
  sl_unfold_run_names
  rw [WholeStores.read_writes_whole_last _ _ off00]
  simp only [WholeStores.readAt_whole_unread harg2 off00', WholeStores.readAt_whole_unread harg3 off00', WholeStores.readAt_whole_unread harg5 off00, WholeStores.readCov_whole_last (S := S1x1) arg5.view off00]
  rfl

end Cert.KernelIdeal.Hand

end
-- ==== Proof.KIData.lean ====
/-
  The region's proof data and the body obligation.

  After point n the scratch accumulator holds the step function applied n + 1 times from the cleared value, over the
  points' pairs of blocks; that is also what the body copies into the result's buffer at the last point. The two input
  buffers hold their windows' blocks at every point. Between points the region's invariant is the scratch at that
  accumulated value (before the first point: at anything) and the generator register at some state. The two input
  windows show the same array, so each holds half of its share.
-/
import proofs.«162471_j55697135895164_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator point by point -/

/-- What the accumulator holds after the body at position `n`. -/
def accAt (c : Dev nD) : (n : ℕ) → n < cfg0.N → Vec F S1x1 .f32
  | 0, hn => accStep (iblk m c 0 ⟨0, hn⟩) (iblk m c 1 ⟨0, hn⟩) accZero
  | n + 1, hn => accStep (iblk m c 0 ⟨n + 1, hn⟩) (iblk m c 1 ⟨n + 1, hn⟩) (accAt c n (Nat.lt_of_succ_lt hn))

theorem accAt_zero (c : Dev nD) (t : Fin cfg0.N) (hz : t.val = 0) :
    accAt m c t.val t.isLt = accStep (iblk m c 0 t) (iblk m c 1 t) accZero := by
  obtain ⟨n, hn⟩ := t
  cases n with
  | zero => rfl
  | succ n => exact absurd hz (Nat.succ_ne_zero n)

theorem accAt_pos (c : Dev nD) (t : Fin cfg0.N) (hz : t.val ≠ 0) :
    accAt m c t.val t.isLt
      = accStep (iblk m c 0 t) (iblk m c 1 t) (accAt m c (t.val - 1) (Nat.lt_of_le_of_lt (Nat.sub_le _ _) t.isLt)) := by
  obtain ⟨n, hn⟩ := t
  cases n with
  | zero => exact absurd rfl hz
  | succ n => rfl

/-! ## The invariant between points -/

def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- On core `c`: the arrays as the region finds them; after the body at point `t` each input's buffer at its block and
    the result's buffer at the accumulator (consulted at the last point only: elsewhere that window is idle); the
    invariant above; the two input windows each at half of their common array's share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: by the point's place in the grid one of the three runs applies; the invariant hands it the
    scratch at what the point before left (at anything at the first point) and takes it back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  have hN : t.val < 256 := lt_of_lt_of_eq t.isLt (show cfg0.N = 256 from N_0)
  by_cases hz : t.val = 0
  · have hF : condFirst (grid0.coords t) := (hcondFirst t).mpr hz
    have hL : ¬condLast (grid0.coords t) := fun h => by have := (hcondLast t).mp h; omega
    rw [Dat.leavesExact_idle (dats m 0 c) 2 t (idle2 t hL) (noFlush2 t hL)]
    rw [PhiS_castSucc m c t, PhiS_zero m c _ _ hz, PhiA0_eq, accAt_zero m c t hz]
    iintro ⟨⟨⟨%ds, HS⟩, Hg⟩, Ho, ⟨%d0, H0⟩, ⟨%d1, H1⟩, ⟨%d2, H2⟩⟩
    iapply (run_first c (grid0.coords t) _ _ _ _ _ _ _ _ hF hL (iblk m c 0 t) (iblk m c 1 t) _ ds Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexists _; iexact H2
  · have hF : ¬condFirst (grid0.coords t) := fun h => hz ((hcondFirst t).mp h)
    rw [PhiS_castSucc m c t, PhiS_pos m c _ _ hz, accAt_pos m c t hz]
    by_cases hl : t.val = 255
    · have hL : condLast (grid0.coords t) := (hcondLast t).mpr hl
      rw [show (dats m 0 c).leavesExact 2 t = owns (c : Thread nD τ) (ms2 t) fullShare ((dats m 0 c).after 2 t) from by
        unfold Dat.leavesExact; rw [live2 t hL], after2, accAt_pos m c t hz]
      iintro ⟨⟨HS, Hg⟩, Ho, ⟨%d0, H0⟩, ⟨%d1, H1⟩, ⟨%d2, H2⟩⟩
      iapply (run_last c (grid0.coords t) _ _ _ _ _ _ _ _ hF hL (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · have hL : ¬condLast (grid0.coords t) := fun h => hl ((hcondLast t).mp h)
      rw [Dat.leavesExact_idle (dats m 0 c) 2 t (idle2 t hL) (noFlush2 t hL)]
      iintro ⟨⟨HS, Hg⟩, Ho, ⟨%d0, H0⟩, ⟨%d1, H1⟩, ⟨%d2, H2⟩⟩
      iapply (run_mid c (grid0.coords t) _ _ _ _ _ _ _ _ hF hL (iblk m c 0 t) (iblk m c 1 t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: the accumulator's value is forgotten. -/
theorem hout (c : Dev nD) : (dats m 0 c).Φ (Fin.last cfg0.N) ⊢ Pipeline.ΦA spec0 c := by
  have ht : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨HS0, Hg⟩
  isplitl [HS0]
  · iexists _; iexact HS0
  iexact Hg

end Cert.KernelIdeal.Hand

end
-- ==== Proof.KILaunch.lean ====
/-
  The launch: @main run from any memory.

  The two input windows show one array, so the region takes that array's buffer split into two half shares, one per
  window, and hands the halves back joined only in what the final state says of it. After the region the closing
  operation flattens the 1 × 1 result into the scalar @main returns; it reads the result array at what the region left
  in it and writes the scalar's buffer, touching nothing else. Every weakly fair execution therefore ends, without a
  fault, with the scalar at the flattening of the result array's final contents and the argument as it was.
-/
import proofs.«162471_j55697135895164_1_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shared array, split between its two windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The region's arrays, spelt out: the points' buffer at its left half for the first window and at its right half for
    the second, the result's buffer at the full share. -/
theorem arrays_plain (c : Dev nD) (G : (w : Fin cfg0.W) → Buf (Elt F) ((cfg0.win w).arr.view.loc (c.tc : Thread nD τ))) :
    ((dats m 0 c).arrays G : sProp 𝕄)
      = iprop((((c.tc : Thread nD τ).loc main_v1) ↦{fullShare.left} G 0) ∗ (((c.tc : Thread nD τ).loc main_v1) ↦{fullShare.right} G 1)
          ∗ (((c.tc : Thread nD τ).loc main_v2) ↦{fullShare} G 2)) := by
  unfold Dat.arrays
  rw [bigSep_W0, share0, share1, share2,
    show ((cfg0.win 0).arr.view.set) = Finset.univ from (arr_whole0 0).set_eq_univ,
    show ((cfg0.win 2).arr.view.set) = Finset.univ from (arr_whole0 2).set_eq_univ]

/-- The buffers behind the windows' arrays, whole at the full share, make the region's arrays at entry: the points'
    buffer is split into its two halves, one per input window. -/
theorem hsplit (c : Dev nD) :
    (Pipeline.arrBufs spec0 c (V m c) : sProp 𝕄) ⊢ (dats m 0 c).arrays ((dats m 0 c).arrAt · 0) := by
  rw [arrays_plain]
  unfold Pipeline.arrBufs
  rw [show (Finset.univ.image (Pipeline.arrRef spec0) : Finset (Ref sig .tc)) = {main_v1, main_v2} from by decide]
  rw [BI.bigSep_insert (by decide), BI.bigSep_singleton]
  refine (sep_mono ((pointsTo_share (PosShare.mem_left_op_right fullShare)).1) .rfl).trans ?_
  exact sep_assoc.1

/-! ## The closing flattening -/

/-- The result array at the region's exit. -/
abbrev resArr (c : Dev nD) : Buf (Elt F) ((c : Thread nD τ).loc main_v2) := (dats m 0 c).arrAt 2 cfg0.N

/-- The scalar the closing operation makes of it. -/
def resScalar (c : Dev nD) : Buf (Elt F) ((c : Thread nD τ).loc main_v3) :=
  fun i => shapeCast S_ (resArr m c) shapeCasts_S1x1_S_ i

/-- The buffers' contents at the region's exit: the result array at its final contents, the rest as at entry. -/
def Vexit (c : Dev nD) : Valuation τ sig (Elt F) := Function.update (V0 m c) (Proc.devRef .tc main_v2) (resArr m c)

/-- … and after the closing operation. -/
def Vfin (c : Dev nD) (b : Ref sig .tc) : Buf (Elt F) ((c : Thread nD τ).loc b) := StableHlo.after hostOps1 (Vexit m c) (Proc.devRef .tc b)

theorem Vexit_v2 (c : Dev nD) : Vexit m c (Proc.devRef .tc main_v2) = resArr m c := by
  unfold Vexit; rw [Function.update_self]

theorem Vexit_ne (c : Dev nD) (b : Ref sig .tc) (hb : b ≠ main_v2) : Vexit m c (Proc.devRef .tc b) = V m c b := by
  unfold Vexit; rw [Function.update_of_ne (fun e => hb (Proc.devRef_injective _ e))]

theorem Vfin_v3 (c : Dev nD) : Vfin m c main_v3 = resScalar m c := by
  unfold Vfin resScalar
  simp only [hostOps1, StableHlo.after_cons, StableHlo.after_nil]
  rw [StableHlo.reshape_result', Vexit_v2]
  rfl

theorem Vfin_ne (c : Dev nD) (b : Ref sig .tc) (hb : b ≠ main_v3) : Vfin m c b = Vexit m c (Proc.devRef .tc b) := by
  unfold Vfin
  refine StableHlo.after_of_forall_not_mem _ _ fun op hop => ?_
  simp only [hostOps1, List.mem_cons, List.mem_nil_iff, or_false] at hop
  subst hop
  simp only [StableHlo.reshape_writes, Finset.mem_singleton]
  exact fun e => hb (Proc.devRef_injective _ e)

theorem after_v2 (c : Dev nD) : StableHlo.after hostOps1 (Vexit m c) (Proc.devRef .tc main_v2) = resArr m c :=
  (Vfin_ne m c main_v2 (by decide)).trans (Vexit_v2 m c)
theorem after_v3 (c : Dev nD) : StableHlo.after hostOps1 (Vexit m c) (Proc.devRef .tc main_v3) = resScalar m c :=
  Vfin_v3 m c

/-- The two buffers the closing operation touches. -/
def S23 : Finset (DevRef τ sig) := {Proc.devRef .tc main_v2, Proc.devRef .tc main_v3}

theorem S23_ne : (Proc.devRef .tc main_v2 : DevRef τ sig) ∉ ({Proc.devRef .tc main_v3} : Finset (DevRef τ sig)) := by
  rw [Finset.mem_singleton]; exact StableHlo.devRef_ne_of_ne (by decide)

theorem held_S23 (c : Dev nD) (W : Valuation τ sig (Elt F)) :
    (StableHlo.held (c.tc : Thread nD τ) S23 W : sProp 𝕄)
      = iprop((((c.tc : Thread nD τ).loc main_v2) ↦{fullShare} W (Proc.devRef .tc main_v2))
          ∗ (((c.tc : Thread nD τ).loc main_v3) ↦{fullShare} W (Proc.devRef .tc main_v3))) := by
  unfold StableHlo.held S23
  rw [BI.bigSep_insert S23_ne, BI.bigSep_singleton]
  rfl

/-- At the region's exit the two buffers hold the result array's final contents and the scalar's entry contents, -/
theorem held_exit (c : Dev nD) :
    (StableHlo.held (c.tc : Thread nD τ) S23 (Vexit m c) : sProp 𝕄)
      = iprop((((c.tc : Thread nD τ).loc main_v2) ↦{fullShare} resArr m c)
          ∗ (((c.tc : Thread nD τ).loc main_v3) ↦{fullShare} V m c main_v3)) := by
  rw [held_S23, Vexit_v2, Vexit_ne m c main_v3 (by decide)]

/-- and after the closing operation the same array and its flattening. -/
theorem held_after (c : Dev nD) :
    (StableHlo.held (c.tc : Thread nD τ) S23 (StableHlo.after hostOps1 (Vexit m c)) : sProp 𝕄)
      = iprop((((c.tc : Thread nD τ).loc main_v2) ↦{fullShare} resArr m c)
          ∗ (((c.tc : Thread nD τ).loc main_v3) ↦{fullShare} resScalar m c)) := by
  rw [held_S23, after_v2, after_v3]

theorem hostOps1_S23 : ∀ op ∈ (hostOps1 : List (HloOp τ sig (Elt F))), op.bufs ⊆ S23 := by
  intro op hop
  simp only [hostOps1, List.mem_cons, List.mem_nil_iff, or_false] at hop
  subst hop
  intro b hb
  exact hb

theorem hostOps1_fresh' : ∀ op ∈ (hostOps1 : List (HloOp τ sig (Elt F))), op.fresh = ∅ :=
  List.forall_iff_forall_mem.mp hostOps1_fresh

-- the rule for a line of host operations is stated for any thread; at the core's thread its application unifies
-- only when unification may unfold plain definitions in a metavariable's type
set_option backward.isDefEq.respectTransparency.types false in
/-- The closing operation, run from the two buffers it touches: the result array is read, the scalar's buffer ends at
    the array's flattening. -/
theorem tail_run (c : Dev nD) {β : Type} (k : PUnit → Prog (TpuEff nD τ sig (Elt F) (Pipeline.Sig Λ₀ (Fin 1) fun p => (pcfgs (F := F) p).Adm) .tc) β)
    (K : β → sProp 𝕄) :
    iprop((boundary (c.tc : Thread nD τ)
          ∗ ((((c.tc : Thread nD τ).loc main_v2) ↦{fullShare} resArr m c) ∗ (((c.tc : Thread nD τ).loc main_v3) ↦{fullShare} V m c main_v3)))
        ∗ ((boundary (c.tc : Thread nD τ)
            ∗ ((((c.tc : Thread nD τ).loc main_v2) ↦{fullShare} resArr m c) ∗ (((c.tc : Thread nD τ).loc main_v3) ↦{fullShare} resScalar m c)))
          -∗ wp frame (wpE (defs (F := F)) (Variants.lift Variants.none) (c.tc : Thread nD τ) none) Set.univ (k ⟨⟩) K))
      ⊢ wp frame (wpE (defs (F := F)) (Variants.lift Variants.none) (c.tc : Thread nD τ) none) Set.univ (StableHlo.seq hostOps1 >>= k) K := by
  rw [← held_exit, ← held_after]
  exact BIClass.wand_elim (StableHlo.wp_seq (Variants.lift Variants.none) none Set.univ c S23 k hostOps1 hostOps1_S23 hostOps1_fresh' (Vexit m c))

/-- Nothing is left to run after it. -/
theorem tail_end (c : Dev nD) (Q' : PUnit → sProp 𝕄) :
    Q' ⟨⟩ ⊢ wp frame (wpE (defs (F := F)) (Variants.lift Variants.none) (c.tc : Thread nD τ) none) Set.univ (Pipeline.chain []) Q' := by
  rw [Pipeline.chain_nil, wp_pure]
  iintro H; imodintro; iexact H

/-- From the region's exit — the region boundary, the arrays at their final contents, the bypassing buffers as at entry —
    the closing operation runs and hands back the arrays unchanged and the bypassing buffers at `Vfin`. -/
theorem htail (c : Dev nD) (Q' : PUnit → sProp 𝕄) :
    iprop((iprop((dats m 0 c).arrays ((dats m 0 c).arrAt · cfg0.N)
            ∗ Pipeline.unscopedRestP (Ix := Unit) (Name := ℕ) (U := UR sig nD τ) (Lvl := ℕ) Pipeline.Prefetch.none spec0 c (Vfin m c)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ
          (Pipeline.chain [StableHlo.seq hostOps1]) Q' := by
  rw [Pipeline.unscopedRestP_none, Pipeline.unscopedRestP_none, unscopedRest0_eq, unscopedRest0_eq]
  rw [arrays_plain]
  rw [Vfin_ne m c main_arg0 (by decide), Vfin_ne m c main_v0 (by decide), Vfin_v3,
    Vexit_ne m c main_arg0 (by decide), Vexit_ne m c main_v0 (by decide)]
  rw [Pipeline.chain_cons]
  iintro ⟨Hk, Hb, ⟨A0, A1, A2⟩, ⟨Z0, Z1, Z3⟩⟩
  iapply (tail_run m c (fun _ => Pipeline.chain []) Q')
  isplitl [Hb A2 Z3]
  · isplitl [Hb]; · iexact Hb
    isplitl [A2]; · iexact A2
    iexact Z3
  iintro ⟨Hb, A2, Z3⟩
  iapply (tail_end (F := F) c Q')
  iapply Hk
  isplitl [A0 A1 A2]
  · isplitl [A0]; · iexact A0
    isplitl [A1]; · iexact A1
    iexact A2
  isplitl [Z0]; · iexact Z0
  isplitl [Z1]; · iexact Z1
  iexact Z3

/-! ## The run -/

theorem Vfin_arg0 (c : Dev nD) : Vfin m c main_arg0 = m ((c.tc : Thread nD τ).loc main_arg0) :=
  (Vfin_ne m c main_arg0 (by decide)).trans ((Vexit_ne m c main_arg0 (by decide)).trans (V_main_arg0 m c))

-- the launch theorem's implicit arguments are found by unifying its conclusion with this one, which takes unfolding
-- plain definitions in a metavariable's type
set_option backward.isDefEq.respectTransparency.types false in
/-- At the compiled mesh, for any float values, from any memory with zero counters: every weakly fair execution of @main
    terminates, nothing faulting, with the returned scalar at the flattening of what the region left in its result
    array and the argument unchanged. -/
theorem run_main : θ_run defs (onTc (τ := τ) (main (F := F))) ⟨m, fun _ => 0, ρ⟩ (fun r => ∀ c : Dev nD,
      r.2.mem ((c.tc : Thread nD τ).loc main_v3) = resScalar m c
      ∧ r.2.mem ((c.tc : Thread nD τ).loc main_arg0) = m ((c.tc : Thread nD τ).loc main_arg0)) := by
  classical
  exact Pipeline.θ_run_region_pf_tail (fun q => (cfgs q).toPCfg) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (fun q => (cfgs q).toPCfg) (fun q => (cfgs q).toPCfg_adm)) cellOf_inj)
      (Pipeline.launchToks (Pipeline.pin (fun q => (cfgs q).toPCfg) (fun q => (cfgs q).toPCfg_adm)) cellOf_inj))
    (hu₀ := by
      iintro Hu; imodintro
      isplitl [Hu]
      · iapply (show (ownU _ : sProp 𝕄) ⊢ BI.own (emb₁ (initOf (Pipeline.cells (Pipeline.pin (fun q => (cfgs q).toPCfg) (fun q => (cfgs q).toPCfg_adm)) cellOf_inj)
          (Pipeline.launchToks (Pipeline.pin (fun q => (cfgs q).toPCfg) (fun q => (cfgs q).toPCfg_adm)) cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vfin m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Vfin m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vfin m c) s')
      isplitl [HU] <;> iassumption)
    (hQ := fun s h c => ⟨((h c).2.2 main_v3 (by decide)).trans (Vfin_v3 m c), ((h c).2.2 main_arg0 (by decide)).trans (Vfin_arg0 m c)⟩)

/-- The frame: @main runs to the end, faulting nowhere, and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.PairSum.lean ====
/-
  The mathematics of this certificate, with no program in sight.

  From the input, read as 8192 points of 32 coordinates, both programs form for every ordered pair (p, q) the squared
  distance through the Gram matrix, |p|² + |q|² − 2⟨p, q⟩, clamp it at zero from below, take its square root where it
  is positive (and 0 elsewhere), and from that distance d the two clipped linear ramps ρ = clip(d / 2, 0, 1) and
  w = clip(1 − d / 2, 0, 1). The reference sums (2ρ − 1)·w over all pairs and multiplies the total by 1/4; the kernel
  multiplies every summand by 1/4 first — as (1/4·(2ρ − 1))·w — and sums tile by tile: the pairs are cut into 16 × 16
  tiles of 512 × 512, a tile's summands are added along the second point and then along the first, and the tile totals
  are added one after the other, tile (i, j) at step 16·i + j, onto an accumulator that starts at zero.

  Both ramps lie between 0 and 1 whatever d is, so every summand is a real number and the factor 1/4 moves across the
  finite sums: the two values are equal on all extended-real inputs.
-/
import Idealize.ShloMosaic.PureOps.Ideal.Laws
import Idealize.ShloMosaic.Lib.ValueIdx

noncomputable section

open scoped BigOperators

namespace Cert.PairSum

open Idealize.ShloMosaic Idealize.ShloMosaic.ValueIdx

/-- The four float literals of the two programs, as the extended reals their bit patterns denote: 0, 1, 2 and 1/4. -/
abbrev c0 : EReal := Ideal.ofBits .f32 0x00000000#32
abbrev c1 : EReal := Ideal.ofBits .f32 0x3F800000#32
abbrev c2 : EReal := Ideal.ofBits .f32 0x40000000#32
abbrev cq : EReal := Ideal.ofBits .f32 0x3E800000#32

/-- The distance of two points from the sum `s` of their squared norms and their inner product `g`: the square root of
    `max (s − 2g) 0` where that is positive, and 0 where it is not. -/
def dist (s g : EReal) : EReal :=
  Scalar.select (Ideal.cmp .ogt (max (s - c2 * g) c0) c0)
    (Ideal.sqrt (Scalar.select (Ideal.cmp .ogt (max (s - c2 * g) c0) c0) (max (s - c2 * g) c0) c1)) c0

/-- The ramp ρ: d / 2 clipped to [0, 1]. -/
def rho (d : EReal) : EReal := min c1 (max c0 (Ideal.div d c2))
/-- The ramp w: 1 − d / 2 clipped to [0, 1]. -/
def wgt (d : EReal) : EReal := min c1 (max c0 (c1 - Ideal.div d c2))
/-- The kernel's summand at distance d: (1/4 · (2ρ − 1)) · w. -/
def kterm (d : EReal) : EReal := cq * (c2 * rho d - c1) * wgt d
/-- The reference's summand at distance d: (2ρ − 1) · w. -/
def rterm (d : EReal) : EReal := (c2 * rho d - c1) * wgt d

/-- The input [1, 32, 8192] read as 8192 points of 32 coordinates: coordinate `c` of point `n`. -/
def points (a : (⟨3, ![1, 32, 8192]⟩ : Shape).Idx → EReal) (n : Fin 8192) (c : Fin 32) : EReal := a (ix3 0 c n)

section

variable (x : Fin 8192 → Fin 32 → EReal)

/-- A point's squared norm. -/
def sqn (n : Fin 8192) : EReal := ∑ c : Fin 32, x n c * x n c
/-- Two points' inner product. -/
def gram (p q : Fin 8192) : EReal := ∑ c : Fin 32, x p c * x q c
/-- Two points' distance. -/
def pdist (p q : Fin 8192) : EReal := dist (sqn x p + sqn x q) (gram x p q)

/-- Point `r` of block `i` of 512 consecutive points. -/
def row (i : Fin 16) (r : Fin 512) : Fin 8192 := ⟨i.val * 512 + r.val, by omega⟩

/-- The total of the kernel's summands over tile (i, j): along the second point first, then along the first. -/
def tile (i j : Fin 16) : EReal := ∑ r : Fin 512, ∑ l : Fin 512, kterm (pdist x (row i r) (row j l))

/-- The accumulator after the first `n` tiles, tile (i, j) being the one of step 16·i + j. -/
def accUpTo : ℕ → EReal
  | 0 => c0
  | n + 1 => accUpTo n + (if h : n < 256 then tile x ⟨n / 16, by omega⟩ ⟨n % 16, by omega⟩ else c0)

/-- What the kernel computes: the accumulator after all 256 tiles. -/
def kernelValue : EReal := accUpTo x 256

/-- What the reference computes: 1/4 of (zero plus) the sum over all ordered pairs. -/
def refValue : EReal := cq * (c0 + ∑ p : Fin 8192, ∑ q : Fin 8192, rterm (pdist x p q))

end

end Cert.PairSum

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.TileValue.lean ====
/-
  The kernel's arithmetic at one grid step, read at an index.

  At grid step (i, j) the kernel holds two blocks of 512 points of 32 coordinates. From them it forms, for every pair
  (r, l) of a point of the first block and a point of the second, the sum of the two squared norms — the first block's
  summed along the lanes and kept as a column, the second block's, transposed, summed along the rows and kept as a row,
  each broadcast over the 512 × 512 tile — and the inner product, as the matrix product of the first block with the
  transposed second block accumulated into zero. Entry by entry it then takes the distance, the ramp ρ of it, and the
  summand (1/4 · (2ρ − 1)) · w; the tile's summands are added along the lanes, then along the rows, and the total is
  added to the old accumulator.

  Each operation that is not entry by entry (the lane and row sums, the casts that keep a summed axis, the two
  broadcasts, the transpose, the matrix product) is read at explicit coordinates by a small lemma; everything entry by
  entry holds by unfolding. With the two blocks holding the points of blocks i and j of the input, the stored value is
  the old accumulator plus the total of tile (i, j) of the specification, and the value the accumulator is reset to is
  zero.
-/
import proofs.«162471_j55697135895164_1_alg».proof.Proof.Gen.KernelIdeal.Skeleton
import proofs.«162471_j55697135895164_1_alg».proof.Proof.PairSum
import proofs.«162471_j55697135895164_1_alg».proof.Proof.LibKeepdims
import Idealize.ShloMosaic.Lib.ValueLayout
import proofs.«162471_j55697135895164_1_alg».proof.Proof.LibPlainDot

noncomputable section

open scoped BigOperators

namespace Cert.TileValue

open Cert.KernelIdeal Cert.KernelIdeal.Gen Idealize.ShloMosaic Idealize.ShloMosaic.ValueIdx

/-! ## Sums along one axis of a matrix, read at an index -/

/-- A sum along the lanes (axis 1) of an `a × b` array reads, at row `r`, the sum over `c` of the array at `(r, c)`. -/
theorem sumLanes_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ src acc h hφ hacc (ix1 r) = ∑ c : Fin b, src (ix2 r c) := by
  refine (Ideal.multiReduction_add_single src acc h hφ hacc (ix1 r)).trans ?_
  show ∑ c : Fin b, src (h.lift (ix1 r) c) = _
  refine Finset.sum_congr rfl fun c _ => congrArg src (funext fun ax => Fin.ext ?_)
  match ax with
  | ⟨0, _⟩ => rfl
  | ⟨1, _⟩ => rfl

/-- A sum along the rows (axis 0) of an `a × b` array reads, at lane `l`, the sum over `k` of the array at `(k, l)`. -/
theorem sumRows_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.add.neutral .f32 hφ) (l : Fin b) :
    multiReduction .add [0] ⟨1, ![b]⟩ src acc h hφ hacc (ix1 l) = ∑ k : Fin a, src (ix2 k l) := by
  refine (Ideal.multiReduction_add_single src acc h hφ hacc (ix1 l)).trans ?_
  show ∑ k : Fin a, src (h.lift (ix1 l) k) = _
  refine Finset.sum_congr rfl fun k _ => congrArg src (funext fun ax => Fin.ext ?_)
  match ax with
  | ⟨0, _⟩ => rfl
  | ⟨1, _⟩ => rfl

/-! ## The three ingredients of a squared distance, read at a pair of rows -/

/-- The squared norm of row `r` of a block of points. -/
def rowSq (u : FVec Ideal S512x32 .f32) (r : Fin 512) : EReal := ∑ c : Fin 32, u (ix2 r c) * u (ix2 r c)

/-- The inner product of row `r` of one block with row `l` of another. -/
def rowDot (u w : FVec Ideal S512x32 .f32) (r l : Fin 512) : EReal := ∑ c : Fin 32, u (ix2 r c) * w (ix2 l c)

/-- The lane sums of the squares of a block, kept as a column and broadcast along the lanes: at `(r, l)` the squared
    norm of row `r`. -/
theorem sqCol_apply (u : FVec Ideal S512x32 .f32) (r l : Fin 512) :
    broadcastTo S512x512
        (shapeCast S512x1 (multiReduction .add [1] S512 (mulf u u) 0x00000000#32 reduces_S512x32_S512 (.inl rfl) rfl)
          shapeCasts_S512_S512x1) broadcasts_S512x1_S512x512 (ix2 r l)
      = rowSq u r :=
  (Cert.Lib.Keepdims.bcastCol_apply _ _ r l).trans
    ((Cert.Lib.Keepdims.col_apply _ _ r 0).trans (sumLanes_apply (mulf u u) _ _ _ _ r))

/-- The row sums of the squares of a transposed block, kept as a row and broadcast down the rows: at `(r, l)` the
    squared norm of column `l`. -/
theorem sqRow_apply (w : FVec Ideal S32x512 .f32) (r l : Fin 512) :
    broadcastTo S512x512
        (shapeCast S1x512 (multiReduction .add [0] S512 (mulf w w) 0x00000000#32 reduces_S32x512_S512 (.inl rfl) rfl)
          shapeCasts_S512_S1x512) broadcasts_S1x512_S512x512 (ix2 r l)
      = ∑ k : Fin 32, w (ix2 k l) * w (ix2 k l) :=
  (broadcastTo_1b_ab_apply _ _ r l).trans
    ((shapeCast_a_1a_apply _ _ 0 l).trans (sumRows_apply (mulf w w) _ _ _ _ l))

/-- The product of a block with a transposed block, accumulated into zero: at `(r, l)` the sum over the 32 coordinates. -/
theorem gram_apply (u : FVec Ideal S512x32 .f32) (w : FVec Ideal S32x512 .f32) (r l : Fin 512) :
    matmul dot_S512x32_S32x512_S512x512_1_0_0_1_n_n (some .fp32) u w (constant S512x512 .f32 0x00000000#32) (ix2 r l)
      = ∑ k : Fin 32, u (ix2 r k) * w (ix2 k l) :=
  Cert.Lib.PlainDot.matmul_zero_apply dot_S512x32_S32x512_S512x512_1_0_0_1_n_n_wf (some .fp32) u w r l

/-- The same for a block that is transposed first: at `(r, l)` the squared norm of row `l` of the block. -/
theorem sqRowT_apply (w : FVec Ideal S512x32 .f32) (r l : Fin 512) :
    broadcastTo S512x512
        (shapeCast S1x512
          (multiReduction .add [0] S512
            (mulf (transpose S32x512 [1, 0] w transposes_S512x32_p1_0_S32x512)
              (transpose S32x512 [1, 0] w transposes_S512x32_p1_0_S32x512))
            0x00000000#32 reduces_S32x512_S512 (.inl rfl) rfl)
          shapeCasts_S512_S1x512) broadcasts_S1x512_S512x512 (ix2 r l)
      = rowSq w l :=
  (sqRow_apply _ r l).trans (Finset.sum_congr rfl fun k _ =>
    congrArg₂ (· * ·) (transpose_ix2_apply w _ k l) (transpose_ix2_apply w _ k l))

/-- The product of a block with another block transposed: at `(r, l)` the inner product of row `r` of the first with
    row `l` of the second. -/
theorem gramT_apply (u w : FVec Ideal S512x32 .f32) (r l : Fin 512) :
    matmul dot_S512x32_S32x512_S512x512_1_0_0_1_n_n (some .fp32) u
        (transpose S32x512 [1, 0] w transposes_S512x32_p1_0_S32x512) (constant S512x512 .f32 0x00000000#32) (ix2 r l)
      = rowDot u w r l :=
  (gram_apply u _ r l).trans (Finset.sum_congr rfl fun k _ =>
    congrArg (u (ix2 r k) * ·) (transpose_ix2_apply w _ k l))

/-! ## The distance matrix of a tile -/

/-- The distance matrix at `(r, l)`: the distance of row `r` of the first block and row `l` of the second, from the sum of
    their squared norms and their inner product. -/
theorem pay3_apply (v5 v7 : Vec Ideal S512x32 .f32) (r l : Fin 512) :
    k0_pay3 (F := Ideal) v5 v7 (ix2 r l)
      = Cert.PairSum.dist (rowSq v5 r + rowSq v7 l) (rowDot v5 v7 r l) := by
  unfold k0_pay3
  simp only [shapeCast_self]
  refine Eq.trans ?_ (congrArg₂ Cert.PairSum.dist
    (congrArg₂ (· + ·) (sqCol_apply v5 r l) (sqRowT_apply v7 r l)) (gramT_apply v5 v7 r l))
  rfl

/-! ## The ramp of a tile -/

/-- The ramp matrix is, entry by entry, the ramp ρ of the distance matrix: the distance divided by 2, clipped to [0, 1]. -/
theorem pay4_apply (v5 v7 : Vec Ideal S512x32 .f32) (y : S512x512.Idx) :
    k0_pay4 (F := Ideal) v5 v7 y = Cert.PairSum.rho (k0_pay3 (F := Ideal) v5 v7 y) := rfl

/-! ## The tile's total -/

/-- The kernel's summand, entry by entry, from a distance matrix `d` and a ramp matrix `ρ`: (1/4 · (2ρ − 1)) · w(d). -/
def summand (d ρ : FVec Ideal S512x512 .f32) : FVec Ideal S512x512 .f32 :=
  fun y => Cert.PairSum.cq * (Cert.PairSum.c2 * ρ y - Cert.PairSum.c1) * Cert.PairSum.wgt (d y)

/-- A 512 × 512 array summed along the lanes, kept as a column, summed along the rows and kept as a 1 × 1 array: at its
    one index the sum, over the rows, of each row's sum over the lanes. -/
theorem total_apply (t : FVec Ideal S512x512 .f32) (u u' : Fin 1) :
    shapeCast S1x1
        (multiReduction .add [0] S1
          (shapeCast S512x1 (multiReduction .add [1] S512 t 0x00000000#32 reduces_S512x512_S512 (.inl rfl) rfl)
            shapeCasts_S512_S512x1)
          0x00000000#32 reduces_S512x1_S1 (.inl rfl) rfl)
        shapeCasts_S1_S1x1 (ix2 u u')
      = ∑ r : Fin 512, ∑ l : Fin 512, t (ix2 r l) :=
  (Cert.Lib.Keepdims.col_apply _ _ u u').trans
    ((sumRows_apply _ _ _ _ _ u).trans (Finset.sum_congr rfl fun r _ =>
      (Cert.Lib.Keepdims.col_apply _ _ r u).trans (sumLanes_apply t _ _ _ _ r)))

/-- The value stored into the accumulator: the old accumulator plus the total of the tile's summands, added along the
    lanes first and then along the rows. -/
theorem pay1_apply (d ρ : FVec Ideal S512x512 .f32) (v57 : Vec Ideal S1x1 .f32) (y : S1x1.Idx) :
    k0_pay1 (F := Ideal) d ρ (Scalar.ofBits .f32 0x40000000#32) v57 y
      = v57 y + ∑ r : Fin 512, ∑ l : Fin 512, summand d ρ (ix2 r l) := by
  obtain ⟨u, u', rfl⟩ : ∃ (u u' : Fin 1), y = ix2 u u' := ⟨y 0, y 1, eq_ix2 y⟩
  unfold k0_pay1
  simp only [shapeCast_self]
  exact congrArg (v57 (ix2 u u') + ·) (total_apply (summand d ρ) u u')

/-! ## The two stored values -/

/-- With the two blocks holding the points of blocks `i` and `j`, a row's squared norm is the point's. -/
theorem rowSq_eq (x : Fin 8192 → Fin 32 → EReal) (i : Fin 16) (v : Vec Ideal S512x32 .f32)
    (h : ∀ (r : Fin 512) (c : Fin 32), v (ix2 r c) = x (Cert.PairSum.row i r) c) (r : Fin 512) :
    rowSq v r = Cert.PairSum.sqn x (Cert.PairSum.row i r) :=
  Finset.sum_congr rfl fun c _ => congrArg₂ (· * ·) (h r c) (h r c)

/-- … and two rows' inner product is the two points'. -/
theorem rowDot_eq (x : Fin 8192 → Fin 32 → EReal) (i j : Fin 16) (v5 v7 : Vec Ideal S512x32 .f32)
    (h5 : ∀ (r : Fin 512) (c : Fin 32), v5 (ix2 r c) = x (Cert.PairSum.row i r) c)
    (h7 : ∀ (r : Fin 512) (c : Fin 32), v7 (ix2 r c) = x (Cert.PairSum.row j r) c) (r l : Fin 512) :
    rowDot v5 v7 r l = Cert.PairSum.gram x (Cert.PairSum.row i r) (Cert.PairSum.row j l) :=
  Finset.sum_congr rfl fun c _ => congrArg₂ (· * ·) (h5 r c) (h7 l c)

/-- The value stored at a grid step: the old accumulator plus the total of tile (i, j). -/
theorem payload_value (x : Fin 8192 → Fin 32 → EReal) (i j : Fin 16)
    (v5 v7 : Vec Ideal Cert.KernelIdeal.S512x32 .f32) (v57 : Vec Ideal Cert.KernelIdeal.S1x1 .f32)
    (h5 : ∀ (r : Fin 512) (c : Fin 32), v5 (ix2 r c) = x (Cert.PairSum.row i r) c)
    (h7 : ∀ (r : Fin 512) (c : Fin 32), v7 (ix2 r c) = x (Cert.PairSum.row j r) c)
    (y : Cert.KernelIdeal.S1x1.Idx) :
    Cert.KernelIdeal.Gen.k0_pay1 (F := Ideal) (Cert.KernelIdeal.Gen.k0_pay3 v5 v7) (Cert.KernelIdeal.Gen.k0_pay4 v5 v7)
        (Scalar.ofBits .f32 0x40000000#32) v57 y
      = v57 y + Cert.PairSum.tile x i j := by
  refine (pay1_apply _ _ v57 y).trans (congrArg (v57 y + ·) ?_)
  refine Finset.sum_congr rfl fun r _ => Finset.sum_congr rfl fun l _ => ?_
  show Cert.PairSum.kterm (k0_pay3 (F := Ideal) v5 v7 (ix2 r l)) = _
  refine congrArg Cert.PairSum.kterm ((pay3_apply v5 v7 r l).trans ?_)
  exact congrArg₂ Cert.PairSum.dist
    (congrArg₂ (· + ·) (rowSq_eq x i v5 h5 r) (rowSq_eq x j v7 h7 l)) (rowDot_eq x i j v5 v7 h5 h7 r l)

/-- The value the accumulator is reset to at the first grid step: zero. -/
theorem reset_value (y : Cert.KernelIdeal.S1x1.Idx) :
    Cert.KernelIdeal.Gen.k0_pay2 (F := Ideal) y = Cert.PairSum.c0 := by
  unfold k0_pay2
  simp only [shapeCast_self]
  rfl

end Cert.TileValue

end
-- ==== Proof.KIValue.lean ====
/-
  What the kernel computes, read off its run at the ideal instance.

  The result's window has one block, the whole 1 × 1 array, and the pipeline writes it back once, after the last
  point: the array ends holding the accumulator's value after point 255, and the scalar @main returns is that one
  element. At point t = 16·i + j the first window's block is rows 512·i … 512·i + 511 of the points and the second's
  rows 512·j …, the points being the argument's [1, 32, 8192] array read with its last two axes exchanged. So the
  step taken at point t adds tile (i, j)'s total, and by induction on the point the accumulator after point n is the
  specification's `accUpTo` of n + 1 tiles; after the last point, the kernel's value.
-/
import proofs.«162471_j55697135895164_1_alg».proof.Proof.KILaunch
import proofs.«162471_j55697135895164_1_alg».proof.Proof.TileValue
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The result array at the end, for any float instance -/

section AnyInstance

variable {F : FTy → Type} [FloatOps F]
variable (m : (ℓ : Loc nD τ sig) → Buf (Elt F) ℓ)

/-- The last point of the grid. -/
def tLast : Fin cfg0.N := ⟨255, by rw [show cfg0.N = 256 from N_0]; omega⟩

/-- The result is written back at the last point and nowhere else. -/
theorem flush2_iff (t : Fin cfg0.N) : (cfg0.win 2).flush t = true ↔ t.val = 255 := by
  have hN : t.val < 256 := lt_of_lt_of_eq t.isLt (show cfg0.N = 256 from N_0)
  rw [flush0_2]; omega

/-- The accumulator after the last point, as contents of the result array. -/
abbrev accLast (c : Dev nD) : Buf (Elt F) ((c : Thread nD τ).loc main_v2) :=
  accAt m c 255 (by rw [show cfg0.N = 256 from N_0]; omega)

/-- What the one write-back writes: the array's only block, read through zero offsets, is the array. -/
theorem flushed_last (c : Dev nD) (t : Fin cfg0.N) (hf : (cfg0.win 2).flush t = true) :
    (dats m 0 c).flushed 2 t = ((cfg0.win 2).blk t).view.read (Elt F) (accLast m c) := by
  have h255 : t.val = 255 := (flush2_iff t).mp hf
  obtain rfl : t = tLast := Fin.ext h255
  show (cfg0.win 2).cut (grid0.coords tLast) ((dats m 0 c).after 2 tLast) = _
  rw [after2]
  have hz' : (fun a => win0_2.index tLast a * main_v2.ty.shape.size a) = fun _ => 0 :=
    funext fun a => by fin_cases a <;> decide +kernel
  exact (Memref.read_access_unit_zero (Elt F) main_v2 hz' (fun a => by rw [congrFun hz' a]; simp) (accLast m c)).symm

/-- So the result array ends holding the accumulator's last value. -/
theorem final2 (c : Dev nD) : (dats m 0 c).arrAt 2 cfg0.N = accLast m c :=
  (dats m 0 c).arrAt_eq_of_cover 2 (accLast m c) (flushed_last m c) fun i =>
    ⟨tLast, (flush2_iff tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- The returned scalar is the result array's one element. -/
theorem resScalar_apply (c : Dev nD) (i : S_.Idx) : resScalar m c i = accLast m c (ix2 0 0) := by
  unfold resScalar
  rw [show resArr m c = accLast m c from final2 m c]
  refine shapeCast_apply (accLast m c) shapeCasts_S1x1_S_ i (ix2 0 0) ?_
  show (S1x1.rowMajor (ix2 0 0)).val = (S_.rowMajor i).val
  have e1 : S1x1.numel = 1 := by decide
  have e0 : S_.numel = 1 := by decide
  have h1 := (S1x1.rowMajor (ix2 0 0)).isLt
  have h0 := (S_.rowMajor i).isLt
  omega

end AnyInstance

/-! ## The blocks and the accumulator at the ideal instance -/

variable (m : (ℓ : Loc nD τ sig) → Buf (Elt Ideal) ℓ)

/-- The argument's points on core `c`. -/
abbrev pts (c : Dev nD) : Fin 8192 → Fin 32 → EReal := Cert.PairSum.points (m ((c : Thread nD τ).loc main_arg0))

/-- The array the two windows show is the argument with its last two axes exchanged, then flattened. -/
theorem V_v1 (c : Dev nD) :
    V m c main_v1 = shapeCast S8192x32 (transpose S1x8192x32 [0, 2, 1] (m ((c : Thread nD τ).loc main_arg0)) transposes_S1x32x8192_S1x8192x32_0_2_1) shapeCasts_S1x8192x32_S8192x32 := by
  dsimp only [V, V0]
  simp only [hostOps0, List.flatten_cons, List.flatten_nil, List.append_nil]
  after_results
  rfl

/-- Its row `n` is point `n`. -/
theorem V_v1_apply (c : Dev nD) (n : Fin 8192) (k : Fin 32) : V m c main_v1 (ix2 n k) = pts m c n k := by
  rw [V_v1, shapeCast_1ab_ab_apply, transpose_ix3_021_apply]
  rfl

/-- The two windows' block indices over the grid: the first follows the row coordinate, the second the column one. -/
theorem idx0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx1 : ∀ t : Fin cfg0.N, win0_1.index t 0 = t.val % 16 ∧ win0_1.index t 1 = 0 :=
  (by decide +kernel : ∀ t : Fin grid0.N, win0_1.index t 0 = t.val % 16 ∧ win0_1.index t 1 = 0)

/-- The first window's block at point `t` is block `t / 16` of the points, -/
theorem iblk0_apply (c : Dev nD) (t : Fin cfg0.N) (hi : t.val / 16 < 16) (r : Fin 512) (k : Fin 32) :
    iblk m c 0 t (ix2 r k) = pts m c (Cert.PairSum.row ⟨t.val / 16, hi⟩ r) k := by
  show V m c main_v1 (((cfg0.win 0).blk t).view.emb (ix2 r k)) = _
  rw [← V_v1_apply]
  refine congrArg (V m c main_v1) (funext fun a => Fin.ext ?_)
  match a with
  | ⟨0, _⟩ =>
    show win0_0.index t 0 * 512 + 1 * r.val = t.val / 16 * 512 + r.val
    rw [(idx0 t).1]; omega
  | ⟨1, _⟩ =>
    show win0_0.index t 1 * 32 + 1 * k.val = k.val
    rw [(idx0 t).2]; omega

/-- and the second's is block `t % 16`. -/
theorem iblk1_apply (c : Dev nD) (t : Fin cfg0.N) (hj : t.val % 16 < 16) (r : Fin 512) (k : Fin 32) :
    iblk m c 1 t (ix2 r k) = pts m c (Cert.PairSum.row ⟨t.val % 16, hj⟩ r) k := by
  show V m c main_v1 (((cfg0.win 1).blk t).view.emb (ix2 r k)) = _
  rw [← V_v1_apply]
  refine congrArg (V m c main_v1) (funext fun a => Fin.ext ?_)
  match a with
  | ⟨0, _⟩ =>
    show win0_1.index t 0 * 512 + 1 * r.val = t.val % 16 * 512 + r.val
    rw [(idx1 t).1]; omega
  | ⟨1, _⟩ =>
    show win0_1.index t 1 * 32 + 1 * k.val = k.val
    rw [(idx1 t).2]; omega

/-- One step at point `t` adds tile (t / 16, t % 16)'s total. -/
theorem accStep_apply (c : Dev nD) (t : Fin cfg0.N) (a : Vec Ideal S1x1 .f32) (y : S1x1.Idx) :
    accStep (iblk m c 0 t) (iblk m c 1 t) a y
      = a y + Cert.PairSum.tile (pts m c) ⟨t.val / 16, by have := lt_of_lt_of_eq t.isLt (show cfg0.N = 256 from N_0); omega⟩
          ⟨t.val % 16, by omega⟩ :=
  Cert.TileValue.payload_value (pts m c) _ _ (iblk m c 0 t) (iblk m c 1 t) a
    (fun r k => iblk0_apply m c t _ r k) (fun r k => iblk1_apply m c t _ r k) y

/-- The accumulator after point `n` is the specification's, after `n + 1` tiles. -/
theorem accAt_eq (c : Dev nD) : ∀ (n : ℕ) (h : n < cfg0.N) (y : S1x1.Idx),
    accAt m c n h y = Cert.PairSum.accUpTo (pts m c) (n + 1)
  | 0, h, y => by
    have h256 : (0 : ℕ) < 256 := by omega
    show accStep (iblk m c 0 ⟨0, h⟩) (iblk m c 1 ⟨0, h⟩) accZero y = _
    rw [accStep_apply m c ⟨0, h⟩ accZero y]
    show Cert.KernelIdeal.Gen.k0_pay2 (F := Ideal) y + _ = Cert.PairSum.accUpTo (pts m c) 0 + (if h : 0 < 256 then _ else _)
    rw [Cert.TileValue.reset_value, dif_pos h256]
    rfl
  | n + 1, h, y => by
    have h256 : n + 1 < 256 := lt_of_lt_of_eq h (show cfg0.N = 256 from N_0)
    show accStep (iblk m c 0 ⟨n + 1, h⟩) (iblk m c 1 ⟨n + 1, h⟩) (accAt m c n (Nat.lt_of_succ_lt h)) y = _
    rw [accStep_apply m c ⟨n + 1, h⟩ _ y, accAt_eq c n (Nat.lt_of_succ_lt h) y]
    show _ = Cert.PairSum.accUpTo (pts m c) (n + 1) + (if h : n + 1 < 256 then _ else _)
    rw [dif_pos h256]

/-- The scalar the kernel's @main returns is the specification's kernel value of the argument's points. -/
theorem kernel_value (c : Dev nD) : resScalar m c = fun _ => Cert.PairSum.kernelValue (pts m c) := by
  funext i
  rw [resScalar_apply]
  exact accAt_eq m c 255 _ _

/-- The idealized kernel's run, with its result named. -/
theorem run_value (ρ : Dev nD → PrngReg) :
    θ_run defs (onTc (τ := τ) (main (F := Ideal))) ⟨m, fun _ => 0, ρ⟩ (fun r => ∀ c : Dev nD,
      r.2.mem ((c.tc : Thread nD τ).loc main_v3) = (fun _ => Cert.PairSum.kernelValue (pts m c))
      ∧ r.2.mem ((c.tc : Thread nD τ).loc main_arg0) = m ((c.tc : Thread nD τ).loc main_arg0)) :=
  (θ_run defs _ _).mono (fun _ h c => ⟨(h c).1.trans (kernel_value m c), (h c).2⟩) (run_main m ρ)

end Cert.KernelIdeal.Hand

end
-- ==== Proof.RefRead.lean ====
/-
  The reference program read at an index.

  Stage by stage, the reference forms from the input (8192 points of 32 coordinates) every point's squared norm, the sum
  of the two squared norms and the inner product of every ordered pair (p, q), from those the clamped squared distance,
  its safe square root d, the two clipped ramps of d and the summand (2ρ − 1)·w; it then adds the summands over the whole
  index set of the pair array and multiplies the total by 1/4. Each stage is read here at the index with coordinates
  (0, p, q); the sum over the rank-3 index set with a leading axis of one element is re-indexed as the double sum over
  p and q. The result is the specification's `refValue` of the input's points.
-/
import proofs.«162471_j55697135895164_1_alg».proof.Proof.Gen.ReferenceIdeal.Read
import proofs.«162471_j55697135895164_1_alg».proof.Proof.PairSum

noncomputable section

open scoped BigOperators

namespace Cert.RefRead

open Cert.ReferenceIdeal Cert.ReferenceIdeal.Read Cert.PairSum Idealize.ShloMosaic Idealize.ShloMosaic.ValueIdx

/-- A rank-3 index set whose first axis has one element is the product of its other two coordinate ranges … -/
def idxEquiv3u {n1 n2 : Nat} : (⟨3, ![1, n1, n2]⟩ : Shape).Idx ≃ Fin n1 × Fin n2 where
  toFun i := (i 1, i 2)
  invFun p := ix3 0 p.1 p.2
  left_inv i := by
    funext a
    match a with
    | ⟨0, _⟩ => exact Subsingleton.elim (α := Fin 1) _ _
    | ⟨1, _⟩ => rfl
    | ⟨2, _⟩ => rfl
  right_inv _ := rfl

/-- … so a sum over it is the double sum over those two coordinates. -/
theorem sum_idx3u {M : Type*} [AddCommMonoid M] {n1 n2 : Nat} (f : (⟨3, ![1, n1, n2]⟩ : Shape).Idx → M) :
    ∑ i, f i = ∑ a : Fin n1, ∑ b : Fin n2, f (ix3 0 a b) := by
  rw [← Equiv.sum_comp (idxEquiv3u (n1 := n1) (n2 := n2)).symm f, Fintype.sum_prod_type]
  rfl

variable (x0 : (⟨S1x32x8192, .f32⟩ : BufTy).Contents (Elt Ideal))

/-- The transposed input at (point n, coordinate c) is coordinate c of point n. -/
theorem v0_at (n : Fin 8192) (c : Fin 32) :
    val_main_v0 (F := Ideal) x0 (ix3 0 n c) = points x0 n c := by
  rw [val_main_v0_apply]
  unfold points
  exact congrArg x0 (funext fun a => Fin.ext (by match a with | ⟨0, _⟩ => rfl | ⟨1, _⟩ => rfl | ⟨2, _⟩ => rfl))

/-- The first reduce is a point's squared norm. -/
theorem v2_at (n : Fin 8192) :
    val_main_v2 (F := Ideal) x0 (ix2 0 n) = sqn (points x0) n := by
  rw [val_main_v2_apply, val_main_cst_apply, Ideal.ofBits_def, Ideal.ofBits_zero_f32, zero_add]
  unfold sqn
  refine Finset.sum_congr rfl fun k _ => ?_
  have e : idx_main_v2 (ix2 0 n) k = ix3 0 n k :=
    funext fun a => Fin.ext (by match a with | ⟨0, _⟩ => rfl | ⟨1, _⟩ => rfl | ⟨2, _⟩ => rfl)
  rw [e, val_main_v1_apply, Ideal.mulf_def, v0_at]

/-- The sum of the two broadcast squared norms at the pair (p, q). -/
theorem v7_at (p q : Fin 8192) :
    val_main_v7 (F := Ideal) x0 (ix3 0 p q) = sqn (points x0) p + sqn (points x0) q := by
  have e5 : idx_main_v3 (idx_main_v5 (ix3 (n0 := 1) (n1 := 8192) (n2 := 8192) 0 p q)) = ix2 0 p :=
    funext fun a => Fin.ext (by match a with | ⟨0, _⟩ => rfl | ⟨1, _⟩ => rfl)
  have e6 : idx_main_v4 (idx_main_v6 (ix3 (n0 := 1) (n1 := 8192) (n2 := 8192) 0 p q)) = ix2 0 q :=
    funext fun a => Fin.ext (by match a with | ⟨0, _⟩ => rfl | ⟨1, _⟩ => rfl)
  rw [val_main_v7_apply, Ideal.addf_def, val_main_v5_apply, val_main_v3_apply, e5, val_main_v6_apply,
    val_main_v4_apply, e6, v2_at, v2_at]

/-- The contraction at the pair (p, q) is the two points' inner product. -/
theorem v8_at (p q : Fin 8192) :
    val_main_v8 (F := Ideal) x0 (ix3 0 p q) = gram (points x0) p q := by
  rw [val_main_v8_apply]
  unfold gram
  refine Finset.sum_congr rfl fun k _ => ?_
  have el : lidx_main_v8 (ix3 (n0 := 1) (n1 := 8192) (n2 := 8192) 0 p q) k = ix3 0 p k :=
    funext fun a => Fin.ext (by match a with | ⟨0, _⟩ => rfl | ⟨1, _⟩ => rfl | ⟨2, _⟩ => rfl)
  have er : ridx_main_v8 (ix3 (n0 := 1) (n1 := 8192) (n2 := 8192) 0 p q) k = ix3 0 q k :=
    funext fun a => Fin.ext (by match a with | ⟨0, _⟩ => rfl | ⟨1, _⟩ => rfl | ⟨2, _⟩ => rfl)
  rw [el, er, v0_at, v0_at]

/-- The squared distance through the Gram matrix, clamped at zero from below. -/
theorem v13_at (p q : Fin 8192) :
    val_main_v13 (F := Ideal) x0 (ix3 0 p q)
      = max (sqn (points x0) p + sqn (points x0) q - c2 * gram (points x0) p q) c0 := by
  rw [val_main_v13_apply, val_main_v11_apply, val_main_v10_apply, val_main_v9_apply, val_main_cst_0_apply,
    val_main_v12_apply, val_main_cst_1_apply, v7_at, v8_at]
  simp only [Ideal.maximumf_def, Ideal.subf_def, Ideal.mulf_def, Ideal.ofBits_def]

/-- The safe square root: the two points' distance. -/
theorem v18_at (p q : Fin 8192) :
    val_main_v18 (F := Ideal) x0 (ix3 0 p q) = pdist (points x0) p q := by
  rw [val_main_v18_apply, val_main_v17_apply, val_main_v16_apply, val_main_v15_apply, val_main_v14_apply,
    val_main_cst_2_apply, val_main_call0_v1_apply, val_main_call0_v0_apply, val_main_cst_3_apply,
    val_main_call1_v1_apply, val_main_call1_v0_apply, val_main_cst_4_apply, v13_at]
  simp only [Ideal.cmpf_def, Ideal.hostUnary_sqrt_def, Ideal.ofBits_def]
  unfold pdist Cert.PairSum.dist
  rfl

/-- The summand at the pair (p, q). -/
theorem v31_at (p q : Fin 8192) :
    val_main_v31 (F := Ideal) x0 (ix3 0 p q) = rterm (pdist (points x0) p q) := by
  rw [val_main_v31_apply, val_main_v30_apply, val_main_v28_apply, val_main_v27_apply, val_main_cst_12_apply,
    val_main_v21_apply, val_main_call2_v4_apply, val_main_call2_v3_apply, val_main_cst_7_apply,
    val_main_call2_v2_apply, val_main_call2_v1_apply, val_main_call2_v0_apply, val_main_cst_6_apply,
    val_main_v20_apply, val_main_v19_apply, val_main_cst_5_apply,
    val_main_v29_apply, val_main_cst_13_apply,
    val_main_v26_apply, val_main_call3_v4_apply, val_main_call3_v3_apply, val_main_cst_11_apply,
    val_main_call3_v2_apply, val_main_call3_v1_apply, val_main_call3_v0_apply, val_main_cst_10_apply,
    val_main_v25_apply, val_main_v24_apply, val_main_cst_9_apply,
    val_main_v23_apply, val_main_v22_apply, val_main_cst_8_apply, v18_at]
  simp only [Ideal.mulf_def, Ideal.subf_def, Ideal.minimumf_def, Ideal.maximumf_def, Ideal.hostDivf_def,
    Ideal.ofBits_def]
  unfold rterm rho wgt
  rfl

/-- The reference's result, at the scalar shape's one index, is 1/4 of (zero plus) the sum over all ordered pairs. -/
theorem reference_value :
    val_main_v33 (F := Ideal) x0 = fun _ => refValue (points x0) := by
  funext i
  rw [val_main_v33_apply, val_main_v32_apply, val_main_cst_15_apply, val_main_cst_14_apply, sum_idx3u]
  simp only [v31_at, Ideal.mulf_def, Ideal.ofBits_def]
  unfold refValue
  rfl

end Cert.RefRead

end
-- ==== Proof.PairLaw.lean ====
/-
  The law between the two values, as pure mathematics over the extended reals and finite sums.

  Both ramps are clipped to the interval between the literals 0 and 1, so whatever the distance is (infinite or junk
  included) each ramp is a real number; hence every summand is a real number, and the kernel's summand is 1/4 of the
  reference's. Real summands turn every finite sum of extended reals into the coercion of a finite sum of reals, where
  the factor 1/4 moves across the sums and the tiled order of summation (16 × 16 tiles of 512 × 512 pairs, tile (i, j) at
  step 16·i + j) is a re-indexing of the sum over all ordered pairs.
-/
import proofs.«162471_j55697135895164_1_alg».proof.Proof.PairSum

noncomputable section

open scoped BigOperators

namespace Cert.PairSum

open Idealize.ShloMosaic

/-! ### The four literals are real numbers -/

theorem c0_eq : c0 = ((0 : ℝ) : EReal) := by
  show Ideal.ofBits .f32 0x00000000#32 = _
  rw [Ideal.ofBits_zero_f32]; rfl

theorem c1_eq : c1 = ((1 : ℝ) : EReal) := by
  show Ideal.ofBits .f32 0x3F800000#32 = _
  simp [Ideal.ofBits, Ideal.ieee, -EReal.coe_mul]; norm_num

theorem c2_eq : c2 = ((2 : ℝ) : EReal) := by
  show Ideal.ofBits .f32 0x40000000#32 = _
  simp [Ideal.ofBits, Ideal.ieee, -EReal.coe_mul]; norm_num

theorem cq_eq : cq = ((1 / 4 : ℝ) : EReal) := by
  show Ideal.ofBits .f32 0x3E800000#32 = _
  simp [Ideal.ofBits, Ideal.ieee, -EReal.coe_mul]; norm_num

/-! ### A clipped value is real -/

/-- Whatever y is, min 1 (max 0 y) lies between 0 and 1 and so is a real number. -/
theorem clip_real (y : EReal) : ∃ r : ℝ, min c1 (max c0 y) = (r : EReal) := by
  rw [c0_eq, c1_eq]
  have htop : min ((1 : ℝ) : EReal) (max ((0 : ℝ) : EReal) y) ≠ ⊤ :=
    ne_of_lt (lt_of_le_of_lt (min_le_left _ _) (EReal.coe_lt_top 1))
  have hbot : min ((1 : ℝ) : EReal) (max ((0 : ℝ) : EReal) y) ≠ ⊥ := by
    refine ne_of_gt (lt_of_lt_of_le (EReal.bot_lt_coe 0) (le_min ?_ (le_max_left _ _)))
    exact_mod_cast (zero_le_one : (0 : ℝ) ≤ 1)
  exact ⟨_, (EReal.coe_toReal htop hbot).symm⟩

/-- Both summands are real, and the kernel's is 1/4 of the reference's. -/
theorem terms_real (d : EReal) : ∃ a : ℝ, rterm d = (a : EReal) ∧ kterm d = ((1 / 4 * a : ℝ) : EReal) := by
  obtain ⟨r, hr⟩ := clip_real (Ideal.div d c2)
  obtain ⟨w, hw⟩ := clip_real (c1 - Ideal.div d c2)
  refine ⟨(2 * r - 1) * w, ?_, ?_⟩
  · show (c2 * rho d - c1) * wgt d = _
    rw [show rho d = (r : EReal) from hr, show wgt d = (w : EReal) from hw, c1_eq, c2_eq]
    rw [← EReal.coe_mul, ← EReal.coe_sub, ← EReal.coe_mul]
  · show cq * (c2 * rho d - c1) * wgt d = _
    rw [show rho d = (r : EReal) from hr, show wgt d = (w : EReal) from hw, c1_eq, c2_eq, cq_eq]
    rw [← EReal.coe_mul, ← EReal.coe_sub, ← EReal.coe_mul, ← EReal.coe_mul, mul_assoc]

/-! ### Finite sums of reals -/

/-- The coercion of a finite sum of reals is the sum of the coercions. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ### Re-indexing: blocks of points and steps of tiles -/

/-- A point is point r of block i for exactly one (i, r). -/
def rowEquiv : Fin 16 × Fin 512 ≃ Fin 8192 where
  toFun a := row a.1 a.2
  invFun p := (⟨p.val / 512, by omega⟩, ⟨p.val % 512, by omega⟩)
  left_inv a := by
    rcases a with ⟨⟨i, hi⟩, ⟨r, hr⟩⟩
    simp only [row, Prod.mk.injEq, Fin.mk.injEq]
    constructor <;> omega
  right_inv p := by
    rcases p with ⟨p, hp⟩
    simp only [row, Fin.mk.injEq]
    omega

/-- A sum over all points is a sum over blocks and points within a block. -/
theorem sum_points (g : Fin 8192 → ℝ) : ∑ p : Fin 8192, g p = ∑ i : Fin 16, ∑ r : Fin 512, g (row i r) := by
  rw [← Fintype.sum_prod_type']
  exact (Fintype.sum_equiv rowEquiv _ _ (fun _ => rfl)).symm

/-- A step below 256 is step 16·i + j for exactly one (i, j). -/
def stepEquiv : Fin 16 × Fin 16 ≃ Fin 256 where
  toFun a := ⟨a.1.val * 16 + a.2.val, by omega⟩
  invFun t := (⟨t.val / 16, by omega⟩, ⟨t.val % 16, by omega⟩)
  left_inv a := by
    rcases a with ⟨⟨i, hi⟩, ⟨j, hj⟩⟩
    simp only [Prod.mk.injEq, Fin.mk.injEq]
    constructor <;> omega
  right_inv t := by
    rcases t with ⟨t, ht⟩
    simp only [Fin.mk.injEq]
    omega

/-- A sum over the 256 steps, each read as its tile (t / 16, t % 16), is the sum over all tiles. -/
theorem sum_steps (G : Fin 16 → Fin 16 → ℝ) :
    ∑ t ∈ Finset.range 256, (if h : t < 256 then G ⟨t / 16, by omega⟩ ⟨t % 16, by omega⟩ else 0)
      = ∑ i : Fin 16, ∑ j : Fin 16, G i j := by
  rw [Finset.sum_range]
  rw [← Fintype.sum_prod_type']
  refine (Fintype.sum_equiv stepEquiv _ _ (fun a => ?_)).symm
  rcases a with ⟨⟨i, hi⟩, ⟨j, hj⟩⟩
  have h : i * 16 + j < 256 := by omega
  show G ⟨i, hi⟩ ⟨j, hj⟩ = if h : i * 16 + j < 256 then G ⟨(i * 16 + j) / 16, _⟩ ⟨(i * 16 + j) % 16, _⟩ else 0
  have e1 : (i * 16 + j) / 16 = i := by omega
  have e2 : (i * 16 + j) % 16 = j := by omega
  rw [dif_pos h]
  simp only [e1, e2]

/-- The tiled sum of the quarters is a quarter of the sum over all ordered pairs. -/
theorem tiled_sum (f : Fin 8192 → Fin 8192 → ℝ) :
    ∑ i : Fin 16, ∑ j : Fin 16, ∑ r : Fin 512, ∑ l : Fin 512, 1 / 4 * f (row i r) (row j l)
      = 1 / 4 * ∑ p : Fin 8192, ∑ q : Fin 8192, f p q := by
  rw [sum_points]
  simp only [sum_points (f _)]
  simp only [Finset.mul_sum]
  refine Finset.sum_congr rfl fun i _ => ?_
  exact Finset.sum_comm

/-! ### The two values -/

section

variable (x : Fin 8192 → Fin 32 → EReal)

/-- The reference's summand of a pair, as a real number. -/
def fterm (p q : Fin 8192) : ℝ := (terms_real (pdist x p q)).choose

theorem rterm_eq (p q : Fin 8192) : rterm (pdist x p q) = (fterm x p q : EReal) :=
  (terms_real (pdist x p q)).choose_spec.1

theorem kterm_eq (p q : Fin 8192) : kterm (pdist x p q) = ((1 / 4 * fterm x p q : ℝ) : EReal) :=
  (terms_real (pdist x p q)).choose_spec.2

/-- A tile's total is the coercion of the real double sum of the quarters. -/
theorem tile_eq (i j : Fin 16) :
    tile x i j = ((∑ r : Fin 512, ∑ l : Fin 512, 1 / 4 * fterm x (row i r) (row j l) : ℝ) : EReal) := by
  unfold tile
  rw [coe_sum]
  refine Finset.sum_congr rfl fun r _ => ?_
  rw [coe_sum]
  exact Finset.sum_congr rfl fun l _ => kterm_eq x _ _

/-- The real tile total at step t (zero beyond the last step). -/
def stepReal (t : ℕ) : ℝ :=
  if h : t < 256 then
    ∑ r : Fin 512, ∑ l : Fin 512, 1 / 4 * fterm x (row ⟨t / 16, by omega⟩ r) (row ⟨t % 16, by omega⟩ l)
  else 0

/-- The accumulator after n steps is the coercion of the real sum of the first n tile totals. -/
theorem accUpTo_eq (n : ℕ) : accUpTo x n = ((∑ t ∈ Finset.range n, stepReal x t : ℝ) : EReal) := by
  induction n with
  | zero => simp [accUpTo, c0_eq]
  | succ n ih =>
    rw [Finset.sum_range_succ, EReal.coe_add, ← ih]
    show accUpTo x n + _ = _
    congr 1
    unfold stepReal
    by_cases h : n < 256
    · rw [dif_pos h, dif_pos h, tile_eq]
    · rw [dif_neg h, dif_neg h, c0_eq]

theorem kernelValue_eq_refValue : kernelValue x = refValue x := by
  unfold kernelValue refValue
  rw [accUpTo_eq]
  have hsum : (∑ p : Fin 8192, ∑ q : Fin 8192, rterm (pdist x p q))
      = ((∑ p : Fin 8192, ∑ q : Fin 8192, fterm x p q : ℝ) : EReal) := by
    rw [coe_sum]
    refine Finset.sum_congr rfl fun p _ => ?_
    rw [coe_sum]
    exact Finset.sum_congr rfl fun q _ => rterm_eq x _ _
  rw [hsum, c0_eq, cq_eq, ← EReal.coe_add, ← EReal.coe_mul, zero_add]
  congr 1
  unfold stepReal
  rw [sum_steps (fun i j => ∑ r : Fin 512, ∑ l : Fin 512, 1 / 4 * fterm x (row i r) (row j l))]
  exact tiled_sum (fterm x)

end

end Cert.PairSum

end
-- ==== Proof.lean ====
/-
  The five claims of this certificate.

  Both programs compute, from 8192 points of 32 coordinates, a sum over all ordered pairs of a clipped function of the
  pair's distance: the kernel adds (1/4·(2ρ − 1))·w tile by tile into an accumulator over a 16 × 16 grid, the reference
  multiplies the sum of (2ρ − 1)·w by 1/4. The ramps ρ and w lie between 0 and 1 on every extended-real input, so
  each summand is a real number and the factor moves across the finite sums: the two results agree everywhere, and the
  precondition is never opened.

  The frames of the two kernel programs are proved by running the kernel region by hand (its two input windows share
  one array, each holding half of its share) and the closing operation after it; the reference's frame is its
  generated run with the result dropped; the idealization rewrote nothing, so there is nothing to preserve; the
  algebraic claim joins the kernel's run at the ideal instance, whose result is the accumulator after the last point,
  with the reference's generated run, whose result read at an index is the double sum, by the law between the two.
-/
import proofs.«162471_j55697135895164_1_alg».proof.Defs
import proofs.«162471_j55697135895164_1_alg».proof.Proof.Gen.Kernel
import proofs.«162471_j55697135895164_1_alg».proof.Proof.Gen.KernelIdeal
import proofs.«162471_j55697135895164_1_alg».proof.Proof.Gen.ReferenceIdeal
import proofs.«162471_j55697135895164_1_alg».proof.Proof.Gen.Pre_finite_inputs
import proofs.«162471_j55697135895164_1_alg».proof.Proof.Gen.ReferenceIdeal.Run
import proofs.«162471_j55697135895164_1_alg».proof.Proof.Gen.ReferenceIdeal.Read
import proofs.«162471_j55697135895164_1_alg».proof.Proof.KBLaunch
import proofs.«162471_j55697135895164_1_alg».proof.Proof.KIValue
import proofs.«162471_j55697135895164_1_alg».proof.Proof.RefRead
import proofs.«162471_j55697135895164_1_alg».proof.Proof.PairLaw
import Idealize.ShloMosaic.Adequacy
import Idealize.ShloMosaic.Init

noncomputable section

namespace Cert.Proof

open Idealize.ShloMosaic Idealize.ShloMosaic.TcCoe Idealize.SL.Sem

/-- The word-level kernel program runs to the end, faulting nowhere, and leaves its argument unchanged. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument both programs end at the kernel's value of the argument's points: the
    kernel by its run, the reference because its double sum times 1/4 is that value. -/
theorem algebraic : Cert.algebraic_KernelIdeal_ReferenceIdeal := by
  intro m ρ m' ρ' _ hagree
  refine ⟨fun c _ => Cert.PairSum.kernelValue (Cert.KernelIdeal.Hand.pts m c), Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, hagree c, Cert.RefRead.reference_value,
    ← Cert.PairSum.kernelValue_eq_refValue]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
